-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27_1)) (v1 : (c : Dev Cert.KernelIdeal.nD) → Buf (Elt Ideal) ((c.tc : Thread Cert.KernelIdeal.nD Cert.KernelIdeal.τ).loc Cert.KernelIdeal.main_v27_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_1) = v0 c
          ∧ r.2.mem ((c.tc : Thread Cert.KernelIdeal.nD Cert.KernelIdeal.τ).loc Cert.KernelIdeal.main_v27_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x2048 : Shape := ⟨2, ![4096, 2048]⟩
abbrev S4x2560x2560 : Shape := ⟨3, ![4, 2560, 2560]⟩
abbrev S4x2560 : Shape := ⟨2, ![4, 2560]⟩
abbrev S2048x2560 : Shape := ⟨2, ![2048, 2560]⟩
abbrev S2048 : Shape := ⟨1, ![2048]⟩
abbrev S512x2560 : Shape := ⟨2, ![512, 2560]⟩
abbrev S512 : Shape := ⟨1, ![512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4x2560x2560 : S_.BroadcastsInDim S4x2560x2560 (![] : Fin 0 → Fin S4x2560x2560.rank)
  reducesTo_S4x2560x2560_S_d0_1_2 : S4x2560x2560.ReducesTo [0, 1, 2] S_
  bcast_S_S4x2560 : S_.BroadcastsInDim S4x2560 (![] : Fin 0 → Fin S4x2560.rank)
  reducesTo_S4x2560_S_d0_1 : S4x2560.ReducesTo [0, 1] S_
  bcast_S_S2048x2560 : S_.BroadcastsInDim S2048x2560 (![] : Fin 0 → Fin S2048x2560.rank)
  reducesTo_S2048x2560_S_d0_1 : S2048x2560.ReducesTo [0, 1] S_
  bcast_S_S2048 : S_.BroadcastsInDim S2048 (![] : Fin 0 → Fin S2048.rank)
  reducesTo_S2048_S_d0 : S2048.ReducesTo [0] S_
  bcast_S_S512x2560 : S_.BroadcastsInDim S512x2560 (![] : Fin 0 → Fin S512x2560.rank)
  reducesTo_S512x2560_S_d0_1 : S512x2560.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S2048x2560 .f32) (main_arg5 : FVec F S2048 .f32) (main_arg6 : FVec F S512x2560 .f32) (main_arg7 : FVec F S512 .f32) (main_v13 : IVec S_ 1) (main_v16 : IVec S4x2560 1) : IVec S_ 1 :=
  let main_c_5 : IVec S_ 1 := constantI S_ 1 1#1
  let main_v17 : IVec S_ 1 := (fun x v => Host.reduce IntOp.andi x v reducesTo_S4x2560_S_d0_1 h_S_) main_v16 main_c_5
  let main_v18 : IVec S_ 1 := andi main_v13 main_v17
  let main_v19 : FVec F S2048x2560 .f32 := Host.absf main_arg4
  let main_cst_6 : FVec F S_ .f32 := constant S_ .f32 0x7F800000#32
  let main_v20 : FVec F S2048x2560 .f32 := broadcastInDim S2048x2560 ![] bcast_S_S2048x2560 main_cst_6
  let main_v21 : IVec S2048x2560 1 := cmpf .olt main_v19 main_v20
  let main_c_7 : IVec S_ 1 := constantI S_ 1 1#1
  let main_v22 : IVec S_ 1 := (fun x v => Host.reduce IntOp.andi x v reducesTo_S2048x2560_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S512x2560 .f32 := Host.absf main_arg6
  let main_cst_10 : FVec F S_ .f32 := constant S_ .f32 0x7F800000#32
  let main_v30 : FVec F S512x2560 .f32 := broadcastInDim S512x2560 ![] bcast_S_S512x2560 main_cst_10
  let main_v31 : IVec S512x2560 1 := cmpf .olt main_v29 main_v30
  let main_c_11 : IVec S_ 1 := constantI S_ 1 1#1
  let main_v32 : IVec S_ 1 := (fun x v => Host.reduce IntOp.andi x v reducesTo_S512x2560_S_d0_1 h_S_) main_v31 main_c_11
  let main_v33 : IVec S_ 1 := andi main_v28 main_v32
  fn_part2 (F := F) main_arg7 main_v33

def fn {F : FTy → Type} [FloatOps F] (main_arg0 : FVec F S4096x512 .f32) (main_arg1 : FVec F S4096x2048 .f32) (main_arg2 : FVec F S4x2560x2560 .f32) (main_arg3 : FVec F S4x2560 .f32) (main_arg4 : FVec F S2048x2560 .f32) (main_arg5 : FVec F S2048 .f32) (main_arg6 : FVec F S512x2560 .f32) (main_arg7 : FVec F S512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4x2560x2560 .f32 := Host.absf main_arg2
  let main_cst_2 : FVec F S_ .f32 := constant S_ .f32 0x7F800000#32
  let main_v10 : FVec F S4x2560x2560 .f32 := broadcastInDim S4x2560x2560 ![] bcast_S_S4x2560x2560 main_cst_2
  let main_v11 : IVec S4x2560x2560 1 := cmpf .olt main_v9 main_v10
  let main_c_3 : IVec S_ 1 := constantI S_ 1 1#1
  let main_v12 : IVec S_ 1 := (fun x v => Host.reduce IntOp.andi x v reducesTo_S4x2560x2560_S_d0_1_2 h_S_) main_v11 main_c_3
  let main_v13 : IVec S_ 1 := andi main_v8 main_v12
  let main_v14 : FVec F S4x2560 .f32 := Host.absf main_arg3
  let main_cst_4 : FVec F S_ .f32 := constant S_ .f32 0x7F800000#32
  let main_v15 : FVec F S4x2560 .f32 := broadcastInDim S4x2560 ![] bcast_S_S4x2560 main_cst_4
  let main_v16 : IVec S4x2560 1 := cmpf .olt main_v14 main_v15
  fn_part1 (F := F) main_arg4 main_arg5 main_arg6 main_arg7 main_v13 main_v16
-- ==== Kernel.lean ====
abbrev S4096x512 : Shape := ⟨2, ![4096, 512]⟩
abbrev S4096x2048 : Shape := ⟨2, ![4096, 2048]⟩
abbrev S4x2560x2560 : Shape := ⟨3, ![4, 2560, 2560]⟩
abbrev S4x2560 : Shape := ⟨2, ![4, 2560]⟩
abbrev S2048x2560 : Shape := ⟨2, ![2048, 2560]⟩
abbrev S2048 : Shape := ⟨1, ![2048]⟩
abbrev S512x2560 : Shape := ⟨2, ![512, 2560]⟩
abbrev S512 : Shape := ⟨1, ![512]⟩
abbrev S1x2560x2560 : Shape := ⟨3, ![1, 2560, 2560]⟩
abbrev S2560x2560 : Shape := ⟨2, ![2560, 2560]⟩
abbrev S2560x512 : Shape := ⟨2, ![2560, 512]⟩
abbrev S2560x2048 : Shape := ⟨2, ![2560, 2048]⟩
abbrev S1x2560 : Shape := ⟨2, ![1, 2560]⟩
abbrev S2560 : Shape := ⟨1, ![2560]⟩
abbrev S4096x2560 : Shape := ⟨2, ![4096, 2560]⟩
abbrev S512x512 : Shape := ⟨2, ![512, 512]⟩
abbrev S512x2048 : Shape := ⟨2, ![512, 2048]⟩
abbrev S1x2048 : Shape := ⟨2, ![1, 2048]⟩
abbrev S1x512 : Shape := ⟨2, ![1, 512]⟩

abbrev nBuf : Space → Nat
  | .hbm => 37
  | .vmem => 37
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4x2560x2560, .f32⟩
  | .hbm, ⟨3, _⟩ => ⟨S4x2560, .f32⟩
  | .hbm, ⟨4, _⟩ => ⟨S2048x2560, .f32⟩
  | .hbm, ⟨5, _⟩ => ⟨S2048, .f32⟩
  | .hbm, ⟨6, _⟩ => ⟨S512x2560, .f32⟩
  | .hbm, ⟨7, _⟩ => ⟨S512, .f32⟩
  | .hbm, ⟨8, _⟩ => ⟨S4096x512, .bf16⟩
  | .hbm, ⟨9, _⟩ => ⟨S4096x2048, .bf16⟩
  | .hbm, ⟨10, _⟩ => ⟨S4x2560x2560, .bf16⟩
  | .hbm, ⟨11, _⟩ => ⟨S1x2560x2560, .bf16⟩
  | .hbm, ⟨12, _⟩ => ⟨S2560x2560, .bf16⟩
  | .hbm, ⟨13, _⟩ => ⟨S2560x512, .bf16⟩
  | .hbm, ⟨14, _⟩ => ⟨S2560x2048, .bf16⟩
  | .hbm, ⟨15, _⟩ => ⟨S1x2560, .f32⟩
  | .hbm, ⟨16, _⟩ => ⟨S2560, .f32⟩
  | .hbm, ⟨17, _⟩ => ⟨S4096x2560, .bf16⟩
  | .hbm, ⟨18, _⟩ => ⟨S1x2560x2560, .bf16⟩
  | .hbm, ⟨19, _⟩ => ⟨S2560x2560, .bf16⟩
  | .hbm, ⟨20, _⟩ => ⟨S1x2560, .f32⟩
  | .hbm, ⟨21, _⟩ => ⟨S2560, .f32⟩
  | .hbm, ⟨22, _⟩ => ⟨S4096x2560, .bf16⟩
  | .hbm, ⟨23, _⟩ => ⟨S1x2560x2560, .bf16⟩
  | .hbm, ⟨24, _⟩ => ⟨S2560x2560, .bf16⟩
  | .hbm, ⟨25, _⟩ => ⟨S1x2560, .f32⟩
  | .hbm, ⟨26, _⟩ => ⟨S2560, .f32⟩
  | .hbm, ⟨27, _⟩ => ⟨S4096x2560, .bf16⟩
  | .hbm, ⟨28, _⟩ => ⟨S1x2560x2560, .bf16⟩
  | .hbm, ⟨29, _⟩ => ⟨S2560x2560, .bf16⟩
  | .hbm, ⟨30, _⟩ => ⟨S1x2560, .f32⟩
  | .hbm, ⟨31, _⟩ => ⟨S2560, .f32⟩
  | .hbm, ⟨32, _⟩ => ⟨S4096x2560, .bf16⟩
  | .hbm, ⟨33, _⟩ => ⟨S2048x2560, .bf16⟩
  | .hbm, ⟨34, _⟩ => ⟨S512x2560, .bf16⟩
  | .hbm, ⟨35, _⟩ => ⟨S4096x2048, .f32⟩
  | .hbm, ⟨36, _⟩ => ⟨S4096x512, .f32⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S2560x512, .bf16⟩
  | .local _ .vmem, ⟨5, _⟩ => ⟨S2560x2048, .bf16⟩
  | .local _ .vmem, ⟨6, _⟩ => ⟨S2560, .f32⟩
  | .local _ .vmem, ⟨7, _⟩ => ⟨S512x2560, .bf16⟩
  | .local _ .vmem, ⟨8, _⟩ => ⟨S512x2560, .bf16⟩
  | .local _ .vmem, ⟨9, _⟩ => ⟨S512x2560, .bf16⟩
  | .local _ .vmem, ⟨10, _⟩ => ⟨S512x2560, .bf16⟩
  | .local _ .vmem, ⟨11, _⟩ => ⟨S2560x2560, .bf16⟩
  | .local _ .vmem, ⟨12, _⟩ => ⟨S2560, .f32⟩
  | .local _ .vmem, ⟨13, _⟩ => ⟨S512x2560, .bf16⟩
  | .local _ .vmem, ⟨14, _⟩ => ⟨S512x2560, .bf16⟩
  | .local _ .vmem, ⟨15, _⟩ => ⟨S512x2560, .bf16⟩
  | .local _ .vmem, ⟨16, _⟩ => ⟨S512x2560, .bf16⟩
  | .local _ .vmem, ⟨17, _⟩ => ⟨S2560x2560, .bf16⟩
  | .local _ .vmem, ⟨18, _⟩ => ⟨S2560, .f32⟩
  | .local _ .vmem, ⟨19, _⟩ => ⟨S512x2560, .bf16⟩
  | .local _ .vmem, ⟨20, _⟩ => ⟨S512x2560, .bf16⟩
  | .local _ .vmem, ⟨21, _⟩ => ⟨S512x2560, .bf16⟩
  | .local _ .vmem, ⟨22, _⟩ => ⟨S512x2560, .bf16⟩
  | .local _ .vmem, ⟨23, _⟩ => ⟨S2560x2560, .bf16⟩
  | .local _ .vmem, ⟨24, _⟩ => ⟨S2560, .f32⟩
  | .local _ .vmem, ⟨25, _⟩ => ⟨S512x2560, .bf16⟩
  | .local _ .vmem, ⟨26, _⟩ => ⟨S512x2560, .bf16⟩
  | .local _ .vmem, ⟨27, _⟩ => ⟨S512x2560, .bf16⟩
  | .local _ .vmem, ⟨28, _⟩ => ⟨S512x2560, .bf16⟩
  | .local _ .vmem, ⟨29, _⟩ => ⟨S2048x2560, .bf16⟩
  | .local _ .vmem, ⟨30, _⟩ => ⟨S512x2560, .bf16⟩
  | .local _ .vmem, ⟨31, _⟩ => ⟨S2048, .f32⟩
  | .local _ .vmem, ⟨32, _⟩ => ⟨S512, .f32⟩
  | .local _ .vmem, ⟨33, _⟩ => ⟨S512x2048, .f32⟩
  | .local _ .vmem, ⟨34, _⟩ => ⟨S512x2048, .f32⟩
  | .local _ .vmem, ⟨35, _⟩ => ⟨S512x512, .f32⟩
  | .local _ .vmem, ⟨36, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27_0 : Ref sig .tc := ⟨.hbm, 35, rfl⟩
abbrev main_v27_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg5_1 : Ref sig .tc := ⟨.vmem, 34, rfl⟩
abbrev cc4_stg6_0 : Ref sig .tc := ⟨.vmem, 35, rfl⟩
abbrev cc4_stg6_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem5_1 : DmaSem sig := 34
abbrev cc4_sem6_0 : DmaSem sig := 35
abbrev cc4_sem6_1 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2560x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2560x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2560x2560 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2560 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2560 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2560 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2560x2560 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2560 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x2560 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2560 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2560x2560 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S2560 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x2560 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x2560 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x2560 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S512x2560 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2048 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S512x2048 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S512x512 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  bitsLt_bf16_f32 : FTy.bits .bf16 < FTy.bits .f32
  slices_S4x2560x2560_S1x2560x2560_0_0_0 : S4x2560x2560.Slices ![0, 0, 0] S1x2560x2560
  shapeCasts_S1x2560x2560_S2560x2560 : S1x2560x2560.ShapeCasts S2560x2560
  slices_S2560x2560_S2560x512_0_0 : S2560x2560.Slices ![0, 0] S2560x512
  slices_S2560x2560_S2560x2048_0_512 : S2560x2560.Slices ![0, 512] S2560x2048
  slices_S4x2560_S1x2560_0_0 : S4x2560.Slices ![0, 0] S1x2560
  shapeCasts_S1x2560_S2560 : S1x2560.ShapeCasts S2560
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2560x512_S2560x512_0_0 : ∀ a, (![0, 0] : Fin 2 → Nat) a + S2560x512.size a ≤ S2560x512.size a
  h_S2560x512 : 0 < S2560x512.numel
  shapeCasts_S2560x512_S2560x512 : S2560x512.ShapeCasts S2560x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2560x2048_S2560x2048_0_0 : ∀ a, (![0, 0] : Fin 2 → Nat) a + S2560x2048.size a ≤ S2560x2048.size a
  h_S2560x2048 : 0 < S2560x2048.numel
  shapeCasts_S2560x2048_S2560x2048 : S2560x2048.ShapeCasts S2560x2048
  inb_S2560_S2560_0 : ∀ a, (![0] : Fin 1 → Nat) a + S2560.size a ≤ S2560.size a
  h_S2560 : 0 < S2560.numel
  shapeCasts_S2560_S2560 : S2560.ShapeCasts S2560
  shapeCasts_S2560_S1x2560 : S2560.ShapeCasts S1x2560
  broadcasts_S1x2560_S512x2560 : S1x2560.Broadcasts S512x2560
  inb_S512x2560_S512x2560_0_0 : ∀ a, (![0, 0] : Fin 2 → Nat) a + S512x2560.size a ≤ S512x2560.size a
  h_S512x2560 : 0 < S512x2560.numel
  packedbf16_S512x2560_S512x2560_0_0 : (Rect.unit (s := S512x2560) ![0, 0] S512x2560.size inb_S512x2560_S512x2560_0_0).PackedRows (EltTy.packing .bf16)
  slices_S4x2560x2560_S1x2560x2560_1_0_0 : S4x2560x2560.Slices ![1, 0, 0] S1x2560x2560
  slices_S4x2560_S1x2560_1_0 : S4x2560.Slices ![1, 0] S1x2560
  shapeCasts_S512x2560_S512x2560 : S512x2560.ShapeCasts S512x2560
  inb_S2560x2560_S2560x2560_0_0 : ∀ a, (![0, 0] : Fin 2 → Nat) a + S2560x2560.size a ≤ S2560x2560.size a
  h_S2560x2560 : 0 < S2560x2560.numel
  shapeCasts_S2560x2560_S2560x2560 : S2560x2560.ShapeCasts S2560x2560
  slices_S4x2560x2560_S1x2560x2560_2_0_0 : S4x2560x2560.Slices ![2, 0, 0] S1x2560x2560
  slices_S4x2560_S1x2560_2_0 : S4x2560.Slices ![2, 0] S1x2560
  slices_S4x2560x2560_S1x2560x2560_3_0_0 : S4x2560x2560.Slices ![3, 0, 0] S1x2560x2560
  slices_S4x2560_S1x2560_3_0 : S4x2560.Slices ![3, 0] S1x2560
  inb_S2048x2560_S2048x2560_0_0 : ∀ a, (![0, 0] : Fin 2 → Nat) a + S2048x2560.size a ≤ S2048x2560.size a
  h_S2048x2560 : 0 < S2048x2560.numel
  shapeCasts_S2048x2560_S2048x2560 : S2048x2560.ShapeCasts S2048x2560
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  dot_S512x512_S2560x512_S512x2560_1_1_0_0_n_n_wf : DotDims.WF S512x512 S2560x512 S512x2560 [1] [1] [0] [0] [] []
  dot_S512x2048_S2560x2048_S512x2560_1_1_0_0_n_n_wf : DotDims.WF S512x2048 S2560x2048 S512x2560 [1] [1] [0] [0] [] []
  dot_S512x2560_S2560x2560_S512x2560_1_1_0_0_n_n_wf : DotDims.WF S512x2560 S2560x2560 S512x2560 [1] [1] [0] [0] [] []
  dot_S512x2560_S2048x2560_S512x2048_1_1_0_0_n_n_wf : DotDims.WF S512x2560 S2048x2560 S512x2048 [1] [1] [0] [0] [] []
  dot_S512x2560_S512x2560_S512x512_1_1_0_0_n_n_wf : DotDims.WF S512x2560 S512x2560 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2560x512.size a ≤ S2560x512.size a
  hwx0_2 : ∀ i : grid0.Coords, EltTy.bits .bf16 = 32 ∨ (Rect.block (s := S2560x512) S2560x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2560x2048.size a ≤ S2560x2048.size a
  hwx0_3 : ∀ i : grid0.Coords, EltTy.bits .bf16 = 32 ∨ (Rect.block (s := S2560x2048) S2560x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2560.size a ≤ S2560.size a
  hwx0_4 : ∀ i : grid0.Coords, EltTy.bits .f32 = 32 ∨ (Rect.block (s := S2560) S2560.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2560.size a ≤ S4096x2560.size a
  hwx0_5 : ∀ i : grid0.Coords, EltTy.bits .bf16 = 32 ∨ (Rect.block (s := S4096x2560) S512x2560.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2560.size a ≤ S4096x2560.size a
  hwx1_0 : ∀ i : grid1.Coords, EltTy.bits .bf16 = 32 ∨ (Rect.block (s := S4096x2560) S512x2560.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2560x2560.size a ≤ S2560x2560.size a
  hwx1_1 : ∀ i : grid1.Coords, EltTy.bits .bf16 = 32 ∨ (Rect.block (s := S2560x2560) S2560x2560.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2560.size a ≤ S2560.size a
  hwx1_2 : ∀ i : grid1.Coords, EltTy.bits .f32 = 32 ∨ (Rect.block (s := S2560) S2560.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2560.size a ≤ S4096x2560.size a
  hwx1_3 : ∀ i : grid1.Coords, EltTy.bits .bf16 = 32 ∨ (Rect.block (s := S4096x2560) S512x2560.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2560.size a ≤ S4096x2560.size a
  hwx2_0 : ∀ i : grid2.Coords, EltTy.bits .bf16 = 32 ∨ (Rect.block (s := S4096x2560) S512x2560.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2560x2560.size a ≤ S2560x2560.size a
  hwx2_1 : ∀ i : grid2.Coords, EltTy.bits .bf16 = 32 ∨ (Rect.block (s := S2560x2560) S2560x2560.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2560.size a ≤ S2560.size a
  hwx2_2 : ∀ i : grid2.Coords, EltTy.bits .f32 = 32 ∨ (Rect.block (s := S2560) S2560.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2560.size a ≤ S4096x2560.size a
  hwx2_3 : ∀ i : grid2.Coords, EltTy.bits .bf16 = 32 ∨ (Rect.block (s := S4096x2560) S512x2560.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2560.size a ≤ S4096x2560.size a
  hwx3_0 : ∀ i : grid3.Coords, EltTy.bits .bf16 = 32 ∨ (Rect.block (s := S4096x2560) S512x2560.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2560x2560.size a ≤ S2560x2560.size a
  hwx3_1 : ∀ i : grid3.Coords, EltTy.bits .bf16 = 32 ∨ (Rect.block (s := S2560x2560) S2560x2560.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S2560.size a ≤ S2560.size a
  hwx3_2 : ∀ i : grid3.Coords, EltTy.bits .f32 = 32 ∨ (Rect.block (s := S2560) S2560.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x2560.size a ≤ S4096x2560.size a
  hwx3_3 : ∀ i : grid3.Coords, EltTy.bits .bf16 = 32 ∨ (Rect.block (s := S4096x2560) S512x2560.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x2560.size a ≤ S4096x2560.size a
  hwx4_0 : ∀ i : grid4.Coords, EltTy.bits .bf16 = 32 ∨ (Rect.block (s := S4096x2560) S512x2560.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x2560.size a ≤ S2048x2560.size a
  hwx4_1 : ∀ i : grid4.Coords, EltTy.bits .bf16 = 32 ∨ (Rect.block (s := S2048x2560) S2048x2560.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x2560.size a ≤ S512x2560.size a
  hwx4_2 : ∀ i : grid4.Coords, EltTy.bits .bf16 = 32 ∨ (Rect.block (s := S512x2560) S512x2560.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S2048.size a ≤ S2048.size a
  hwx4_3 : ∀ i : grid4.Coords, EltTy.bits .f32 = 32 ∨ (Rect.block (s := S2048) S2048.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512.size a ≤ S512.size a
  hwx4_4 : ∀ i : grid4.Coords, EltTy.bits .f32 = 32 ∨ (Rect.block (s := S512) S512.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S512x2048.size a ≤ S4096x2048.size a
  hwx4_5 : ∀ i : grid4.Coords, EltTy.bits .f32 = 32 ∨ (Rect.block (s := S4096x2048) S512x2048.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S512x512.size a ≤ S4096x512.size a
  hwx4_6 : ∀ i : grid4.Coords, EltTy.bits .f32 = 32 ∨ (Rect.block (s := S4096x512) S512x512.size (cc4_transform_6 i) (hinb4_6 i)).WholeWords (EltTy.packing .f32)

variable [Facts₀]

def dot_S512x512_S2560x512_S512x2560_1_1_0_0_n_n : DotDims S512x512 S2560x512 S512x2560 where
  lhsContracting := [1]
  rhsContracting := [1]
  lhsNonContracting := [0]
  rhsNonContracting := [0]
  lhsBatch := []
  rhsBatch := []
  wf := dot_S512x512_S2560x512_S512x2560_1_1_0_0_n_n_wf
def dot_S512x2048_S2560x2048_S512x2560_1_1_0_0_n_n : DotDims S512x2048 S2560x2048 S512x2560 where
  lhsContracting := [1]
  rhsContracting := [1]
  lhsNonContracting := [0]
  rhsNonContracting := [0]
  lhsBatch := []
  rhsBatch := []
  wf := dot_S512x2048_S2560x2048_S512x2560_1_1_0_0_n_n_wf
def dot_S512x2560_S2560x2560_S512x2560_1_1_0_0_n_n : DotDims S512x2560 S2560x2560 S512x2560 where
  lhsContracting := [1]
  rhsContracting := [1]
  lhsNonContracting := [0]
  rhsNonContracting := [0]
  lhsBatch := []
  rhsBatch := []
  wf := dot_S512x2560_S2560x2560_S512x2560_1_1_0_0_n_n_wf
def dot_S512x2560_S2048x2560_S512x2048_1_1_0_0_n_n : DotDims S512x2560 S2048x2560 S512x2048 where
  lhsContracting := [1]
  rhsContracting := [1]
  lhsNonContracting := [0]
  rhsNonContracting := [0]
  lhsBatch := []
  rhsBatch := []
  wf := dot_S512x2560_S2048x2560_S512x2048_1_1_0_0_n_n_wf
def dot_S512x2560_S512x2560_S512x512_1_1_0_0_n_n : DotDims S512x2560 S512x2560 S512x512 where
  lhsContracting := [1]
  rhsContracting := [1]
  lhsNonContracting := [0]
  rhsNonContracting := [0]
  lhsBatch := []
  rhsBatch := []
  wf := dot_S512x2560_S512x2560_S512x512_1_1_0_0_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2560x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2560x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2560.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x2560.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v9) S512x2560.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2560x2560.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2560.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S512x2560.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S512x2560.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2560x2560.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S2560.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S512x2560.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v19) S512x2560.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S2560x2560.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v23) S2560.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v24) S512x2560.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v24) S512x2560.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S2048x2560.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v26) S512x2560.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg5) S2048.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg7) S512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v27_0) S512x2048.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v27_1) S512x512.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S4096x512 : Shape := ⟨2, ![4096, 512]⟩
abbrev S4096x2048 : Shape := ⟨2, ![4096, 2048]⟩
abbrev S4x2560x2560 : Shape := ⟨3, ![4, 2560, 2560]⟩
abbrev S4x2560 : Shape := ⟨2, ![4, 2560]⟩
abbrev S2048x2560 : Shape := ⟨2, ![2048, 2560]⟩
abbrev S2048 : Shape := ⟨1, ![2048]⟩
abbrev S512x2560 : Shape := ⟨2, ![512, 2560]⟩
abbrev S512 : Shape := ⟨1, ![512]⟩
abbrev S4096x2560 : Shape := ⟨2, ![4096, 2560]⟩
abbrev S1x2560x2560 : Shape := ⟨3, ![1, 2560, 2560]⟩
abbrev S2560x2560 : Shape := ⟨2, ![2560, 2560]⟩
abbrev S1x2560 : Shape := ⟨2, ![1, 2560]⟩
abbrev S2560 : Shape := ⟨1, ![2560]⟩
abbrev S_ : Shape := ⟨0, ![]⟩
abbrev S1x2048 : Shape := ⟨2, ![1, 2048]⟩
abbrev S1x512 : Shape := ⟨2, ![1, 512]⟩

abbrev nBuf : Space → Nat
  | .hbm => 62
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4x2560x2560, .f32⟩
  | .hbm, ⟨3, _⟩ => ⟨S4x2560, .f32⟩
  | .hbm, ⟨4, _⟩ => ⟨S2048x2560, .f32⟩
  | .hbm, ⟨5, _⟩ => ⟨S2048, .f32⟩
  | .hbm, ⟨6, _⟩ => ⟨S512x2560, .f32⟩
  | .hbm, ⟨7, _⟩ => ⟨S512, .f32⟩
  | .hbm, ⟨8, _⟩ => ⟨S4096x2560, .f32⟩
  | .hbm, ⟨9, _⟩ => ⟨S1x2560x2560, .f32⟩
  | .hbm, ⟨10, _⟩ => ⟨S2560x2560, .f32⟩
  | .hbm, ⟨11, _⟩ => ⟨S4096x2560, .f32⟩
  | .hbm, ⟨12, _⟩ => ⟨S1x2560, .f32⟩
  | .hbm, ⟨13, _⟩ => ⟨S2560, .f32⟩
  | .hbm, ⟨14, _⟩ => ⟨S1x2560, .f32⟩
  | .hbm, ⟨15, _⟩ => ⟨S4096x2560, .f32⟩
  | .hbm, ⟨16, _⟩ => ⟨S4096x2560, .f32⟩
  | .hbm, ⟨17, _⟩ => ⟨S_, .f32⟩
  | .hbm, ⟨18, _⟩ => ⟨S4096x2560, .f32⟩
  | .hbm, ⟨19, _⟩ => ⟨S4096x2560, .f32⟩
  | .hbm, ⟨20, _⟩ => ⟨S1x2560x2560, .f32⟩
  | .hbm, ⟨21, _⟩ => ⟨S2560x2560, .f32⟩
  | .hbm, ⟨22, _⟩ => ⟨S4096x2560, .f32⟩
  | .hbm, ⟨23, _⟩ => ⟨S1x2560, .f32⟩
  | .hbm, ⟨24, _⟩ => ⟨S2560, .f32⟩
  | .hbm, ⟨25, _⟩ => ⟨S1x2560, .f32⟩
  | .hbm, ⟨26, _⟩ => ⟨S4096x2560, .f32⟩
  | .hbm, ⟨27, _⟩ => ⟨S4096x2560, .f32⟩
  | .hbm, ⟨28, _⟩ => ⟨S_, .f32⟩
  | .hbm, ⟨29, _⟩ => ⟨S4096x2560, .f32⟩
  | .hbm, ⟨30, _⟩ => ⟨S4096x2560, .f32⟩
  | .hbm, ⟨31, _⟩ => ⟨S1x2560x2560, .f32⟩
  | .hbm, ⟨32, _⟩ => ⟨S2560x2560, .f32⟩
  | .hbm, ⟨33, _⟩ => ⟨S4096x2560, .f32⟩
  | .hbm, ⟨34, _⟩ => ⟨S1x2560, .f32⟩
  | .hbm, ⟨35, _⟩ => ⟨S2560, .f32⟩
  | .hbm, ⟨36, _⟩ => ⟨S1x2560, .f32⟩
  | .hbm, ⟨37, _⟩ => ⟨S4096x2560, .f32⟩
  | .hbm, ⟨38, _⟩ => ⟨S4096x2560, .f32⟩
  | .hbm, ⟨39, _⟩ => ⟨S_, .f32⟩
  | .hbm, ⟨40, _⟩ => ⟨S4096x2560, .f32⟩
  | .hbm, ⟨41, _⟩ => ⟨S4096x2560, .f32⟩
  | .hbm, ⟨42, _⟩ => ⟨S1x2560x2560, .f32⟩
  | .hbm, ⟨43, _⟩ => ⟨S2560x2560, .f32⟩
  | .hbm, ⟨44, _⟩ => ⟨S4096x2560, .f32⟩
  | .hbm, ⟨45, _⟩ => ⟨S1x2560, .f32⟩
  | .hbm, ⟨46, _⟩ => ⟨S2560, .f32⟩
  | .hbm, ⟨47, _⟩ => ⟨S1x2560, .f32⟩
  | .hbm, ⟨48, _⟩ => ⟨S4096x2560, .f32⟩
  | .hbm, ⟨49, _⟩ => ⟨S4096x2560, .f32⟩
  | .hbm, ⟨50, _⟩ => ⟨S_, .f32⟩
  | .hbm, ⟨51, _⟩ => ⟨S4096x2560, .f32⟩
  | .hbm, ⟨52, _⟩ => ⟨S4096x2560, .f32⟩
  | .hbm, ⟨53, _⟩ => ⟨S4096x2048, .f32⟩
  | .hbm, ⟨54, _⟩ => ⟨S1x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x512, .f32⟩
  | .hbm, ⟨59, _⟩ => ⟨S1x512, .f32⟩
  | .hbm, ⟨60, _⟩ => ⟨S4096x512, .f32⟩
  | .hbm, ⟨61, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call1_cst : Ref sig .tc := ⟨.hbm, 28, rfl⟩
abbrev main_call1_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call2_cst : Ref sig .tc := ⟨.hbm, 39, rfl⟩
abbrev main_call2_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call3_cst : Ref sig .tc := ⟨.hbm, 50, rfl⟩
abbrev main_call3_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]

class Facts₀ : Prop where
  concatenates_S4096x512_S4096x2048_S4096x2560_d1 : Shape.Concatenates [S4096x512, S4096x2048] S4096x2560 1
  slices_S4x2560x2560_S1x2560x2560_0_0_0 : S4x2560x2560.Slices ![0, 0, 0] S1x2560x2560
  shapeCasts_S1x2560x2560_S2560x2560 : S1x2560x2560.ShapeCasts S2560x2560
  slices_S4x2560_S1x2560_0_0 : S4x2560.Slices ![0, 0] S1x2560
  shapeCasts_S1x2560_S2560 : S1x2560.ShapeCasts S2560
  bcast_S2560_S1x2560_1 : S2560.BroadcastsInDim S1x2560 (![1] : Fin 1 → Fin S1x2560.rank)
  bcast_S1x2560_S4096x2560_0_1 : S1x2560.BroadcastsInDim S4096x2560 (![0, 1] : Fin 2 → Fin S4096x2560.rank)
  bcast_S_S4096x2560 : S_.BroadcastsInDim S4096x2560 (![] : Fin 0 → Fin S4096x2560.rank)
  slices_S4x2560x2560_S1x2560x2560_1_0_0 : S4x2560x2560.Slices ![1, 0, 0] S1x2560x2560
  slices_S4x2560_S1x2560_1_0 : S4x2560.Slices ![1, 0] S1x2560
  slices_S4x2560x2560_S1x2560x2560_2_0_0 : S4x2560x2560.Slices ![2, 0, 0] S1x2560x2560
  slices_S4x2560_S1x2560_2_0 : S4x2560.Slices ![2, 0] S1x2560
  slices_S4x2560x2560_S1x2560x2560_3_0_0 : S4x2560x2560.Slices ![3, 0, 0] S1x2560x2560
  slices_S4x2560_S1x2560_3_0 : S4x2560.Slices ![3, 0] S1x2560
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  dot_S4096x2560_S2560x2560_S4096x2560_1_1_0_0_n_n_wf : DotDims.WF S4096x2560 S2560x2560 S4096x2560 [1] [1] [0] [0] [] []
  dot_S4096x2560_S2048x2560_S4096x2048_1_1_0_0_n_n_wf : DotDims.WF S4096x2560 S2048x2560 S4096x2048 [1] [1] [0] [0] [] []
  dot_S4096x2560_S512x2560_S4096x512_1_1_0_0_n_n_wf : DotDims.WF S4096x2560 S512x2560 S4096x512 [1] [1] [0] [0] [] []

variable [Facts₀]

def dot_S4096x2560_S2560x2560_S4096x2560_1_1_0_0_n_n : DotDims S4096x2560 S2560x2560 S4096x2560 where
  lhsContracting := [1]
  rhsContracting := [1]
  lhsNonContracting := [0]
  rhsNonContracting := [0]
  lhsBatch := []
  rhsBatch := []
  wf := dot_S4096x2560_S2560x2560_S4096x2560_1_1_0_0_n_n_wf
def dot_S4096x2560_S2048x2560_S4096x2048_1_1_0_0_n_n : DotDims S4096x2560 S2048x2560 S4096x2048 where
  lhsContracting := [1]
  rhsContracting := [1]
  lhsNonContracting := [0]
  rhsNonContracting := [0]
  lhsBatch := []
  rhsBatch := []
  wf := dot_S4096x2560_S2048x2560_S4096x2048_1_1_0_0_n_n_wf
def dot_S4096x2560_S512x2560_S4096x512_1_1_0_0_n_n : DotDims S4096x2560 S512x2560 S4096x512 where
  lhsContracting := [1]
  rhsContracting := [1]
  lhsNonContracting := [0]
  rhsNonContracting := [0]
  lhsBatch := []
  rhsBatch := []
  wf := dot_S4096x2560_S512x2560_S4096x512_1_1_0_0_n_n_wf

class Facts : Prop extends Facts₀ where

variable [Facts]
-- ==== Proof.KernelRun.lean ====
/-
  The kernel program's run with its two results named.

  Every weakly fair execution of the five pallas calls and the host operations between them terminates without a
  fault; the final memory holds, at every buffer that is not scratch, the contents the last boundary of the run
  assigns to it.  Read at the two result buffers this names the program's results; read at the argument buffers it
  says they end unchanged.
-/
import proofs.«180260_j81827716924021_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: each result buffer ends at the last boundary's contents, each argument as launched. -/
theorem run : θ_run defs (onTc (τ := τ) (main (F := F))) ⟨m, fun _ => 0, ρ⟩ (fun r => ∀ c : Dev nD,
      r.2.mem ((c.tc : Thread nD τ).loc main_v27_1) = W10 m ρ c (Proc.devRef .tc main_v27_1)
      ∧ r.2.mem ((c.tc : Thread nD τ).loc main_v27_0) = W10 m ρ c (Proc.devRef .tc main_v27_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v27_1 (by decide)),
       h c _ (mem_uc main_v27_0 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Named

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«180260_j81827716924021_2_alg».proof.Proof.LibMatmulPlain
import proofs.«180260_j81827716924021_2_alg».proof.Proof.LibDotsNT
import proofs.«180260_j81827716924021_2_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.LibDenseNT.lean ====
/-
  A dense layer whose weight matrix is stored with one ROW per output feature, read at an entry, on the extended reals.

  For a feature array h : [a, k], a weight matrix W : [n, k] and a bias vector b : [n] the layer's pre-activation at
  entry (r, q) is  sum over c of h(r, c) * W(q, c)  +  b(q): the right operand is contracted on its LAST axis
  (dimension numbers [1], [1], [0], [0]), so no transpose of W is ever formed.  Three activations are read here:
  none (`biased`), the rectifier (`relu`) and the hyperbolic tangent (`tanhL`); and a first layer fed by two arrays
  x : [a, k1], h : [a, k2] against two weight matrices (`relu2`), which is what a layer over the two arrays joined side
  by side computes when the weight matrix is cut at the same column.

  The tile of a grid point spells the layer with the matrix unit's product into a zero accumulator of operands
  rounded to bfloat16 (a change of format, which does nothing to an extended real), the bias cast to one row [1, n]
  and spread over the rows; the host spells it with a dot_general and two broadcast_in_dim.  Both are the same
  function of the arrays, entry by entry.  An entry depends only on its row of h, its row of W and its entry of b
  (`*_congr`): a block of rows of the layer is the layer of the block of rows.
-/
import Idealize.ShloMosaic.Lib.Pipeline.Value
import Idealize.ShloMosaic.Lib.ValueIdx
import Idealize.ShloMosaic.Lib.ValueLayout
import Idealize.ShloMosaic.PureOps.Ideal.Laws
import proofs.«180260_j81827716924021_2_alg».proof.Proof.LibDotsNT
import proofs.«180260_j81827716924021_2_alg».proof.Proof.LibDenseLayer

noncomputable section

open scoped BigOperators

namespace Cert.DenseNT

open Idealize.ShloMosaic Idealize.ShloMosaic.ValueIdx

variable {a k n : ℕ}

/-- The product of an [a, k] array and an [n, k] array contracted on the last axis of both: at (r, q) the sum over c
    of h(r, c) * W(q, c). -/
def prod (h : (⟨2, ![a, k]⟩ : Shape).Idx → EReal) (W : (⟨2, ![n, k]⟩ : Shape).Idx → EReal) :
    (⟨2, ![a, n]⟩ : Shape).Idx → EReal :=
  fun i => ∑ c : Fin k, h (ix2 (i 0) c) * W (ix2 (i 1) c)

/-- The product with b(q) added in column q. -/
def biased (h : (⟨2, ![a, k]⟩ : Shape).Idx → EReal) (W : (⟨2, ![n, k]⟩ : Shape).Idx → EReal)
    (b : (⟨1, ![n]⟩ : Shape).Idx → EReal) : (⟨2, ![a, n]⟩ : Shape).Idx → EReal :=
  fun i => prod h W i + b (ix1 (i 1))

/-- The rectified layer: max(h W^T + b, 0). -/
def relu (h : (⟨2, ![a, k]⟩ : Shape).Idx → EReal) (W : (⟨2, ![n, k]⟩ : Shape).Idx → EReal)
    (b : (⟨1, ![n]⟩ : Shape).Idx → EReal) : (⟨2, ![a, n]⟩ : Shape).Idx → EReal :=
  fun i => max (biased h W b i) 0

/-- The layer followed by the hyperbolic tangent. -/
def tanhL (h : (⟨2, ![a, k]⟩ : Shape).Idx → EReal) (W : (⟨2, ![n, k]⟩ : Shape).Idx → EReal)
    (b : (⟨1, ![n]⟩ : Shape).Idx → EReal) : (⟨2, ![a, n]⟩ : Shape).Idx → EReal :=
  fun i => Ideal.tanh (biased h W b i)

/-- The rectified layer fed by two arrays, each against its own weight matrix: max(x Wx^T + h Wh^T + b, 0). -/
def relu2 {k1 k2 : ℕ} (x : (⟨2, ![a, k1]⟩ : Shape).Idx → EReal) (h : (⟨2, ![a, k2]⟩ : Shape).Idx → EReal)
    (Wx : (⟨2, ![n, k1]⟩ : Shape).Idx → EReal) (Wh : (⟨2, ![n, k2]⟩ : Shape).Idx → EReal)
    (b : (⟨1, ![n]⟩ : Shape).Idx → EReal) : (⟨2, ![a, n]⟩ : Shape).Idx → EReal :=
  fun i => max (prod x Wx i + prod h Wh i + b (ix1 (i 1))) 0

theorem prod_ix2 (h : (⟨2, ![a, k]⟩ : Shape).Idx → EReal) (W : (⟨2, ![n, k]⟩ : Shape).Idx → EReal) (r : Fin a) (q : Fin n) :
    prod h W (ix2 r q) = ∑ c : Fin k, h (ix2 r c) * W (ix2 q c) := rfl

/-! ## An entry depends on one row of each operand -/

/-- The product at an entry, from the row of h and the row of W it reads. -/
theorem prod_congr {a' n' : ℕ} (h : (⟨2, ![a, k]⟩ : Shape).Idx → EReal) (W : (⟨2, ![n, k]⟩ : Shape).Idx → EReal)
    (h' : (⟨2, ![a', k]⟩ : Shape).Idx → EReal) (W' : (⟨2, ![n', k]⟩ : Shape).Idx → EReal)
    (r : Fin a) (q : Fin n) (r' : Fin a') (q' : Fin n')
    (hh : ∀ c, h (ix2 r c) = h' (ix2 r' c)) (hW : ∀ c, W (ix2 q c) = W' (ix2 q' c)) :
    prod h W (ix2 r q) = prod h' W' (ix2 r' q') := by
  rw [prod_ix2, prod_ix2]
  exact Finset.sum_congr rfl fun c _ => by rw [hh c, hW c]

theorem biased_congr {a' n' : ℕ} (h : (⟨2, ![a, k]⟩ : Shape).Idx → EReal) (W : (⟨2, ![n, k]⟩ : Shape).Idx → EReal)
    (b : (⟨1, ![n]⟩ : Shape).Idx → EReal)
    (h' : (⟨2, ![a', k]⟩ : Shape).Idx → EReal) (W' : (⟨2, ![n', k]⟩ : Shape).Idx → EReal)
    (b' : (⟨1, ![n']⟩ : Shape).Idx → EReal)
    (r : Fin a) (q : Fin n) (r' : Fin a') (q' : Fin n')
    (hh : ∀ c, h (ix2 r c) = h' (ix2 r' c)) (hW : ∀ c, W (ix2 q c) = W' (ix2 q' c)) (hb : b (ix1 q) = b' (ix1 q')) :
    biased h W b (ix2 r q) = biased h' W' b' (ix2 r' q') := by
  show prod h W (ix2 r q) + b (ix1 q) = prod h' W' (ix2 r' q') + b' (ix1 q')
  rw [prod_congr h W h' W' r q r' q' hh hW, hb]

theorem relu_congr {a' n' : ℕ} (h : (⟨2, ![a, k]⟩ : Shape).Idx → EReal) (W : (⟨2, ![n, k]⟩ : Shape).Idx → EReal)
    (b : (⟨1, ![n]⟩ : Shape).Idx → EReal)
    (h' : (⟨2, ![a', k]⟩ : Shape).Idx → EReal) (W' : (⟨2, ![n', k]⟩ : Shape).Idx → EReal)
    (b' : (⟨1, ![n']⟩ : Shape).Idx → EReal)
    (r : Fin a) (q : Fin n) (r' : Fin a') (q' : Fin n')
    (hh : ∀ c, h (ix2 r c) = h' (ix2 r' c)) (hW : ∀ c, W (ix2 q c) = W' (ix2 q' c)) (hb : b (ix1 q) = b' (ix1 q')) :
    relu h W b (ix2 r q) = relu h' W' b' (ix2 r' q') := by
  show max (biased h W b (ix2 r q)) 0 = max (biased h' W' b' (ix2 r' q')) 0
  rw [biased_congr h W b h' W' b' r q r' q' hh hW hb]

theorem tanhL_congr {a' n' : ℕ} (h : (⟨2, ![a, k]⟩ : Shape).Idx → EReal) (W : (⟨2, ![n, k]⟩ : Shape).Idx → EReal)
    (b : (⟨1, ![n]⟩ : Shape).Idx → EReal)
    (h' : (⟨2, ![a', k]⟩ : Shape).Idx → EReal) (W' : (⟨2, ![n', k]⟩ : Shape).Idx → EReal)
    (b' : (⟨1, ![n']⟩ : Shape).Idx → EReal)
    (r : Fin a) (q : Fin n) (r' : Fin a') (q' : Fin n')
    (hh : ∀ c, h (ix2 r c) = h' (ix2 r' c)) (hW : ∀ c, W (ix2 q c) = W' (ix2 q' c)) (hb : b (ix1 q) = b' (ix1 q')) :
    tanhL h W b (ix2 r q) = tanhL h' W' b' (ix2 r' q') := by
  show Ideal.tanh (biased h W b (ix2 r q)) = Ideal.tanh (biased h' W' b' (ix2 r' q'))
  rw [biased_congr h W b h' W' b' r q r' q' hh hW hb]

theorem relu2_congr {a' n' k1 k2 : ℕ} (x : (⟨2, ![a, k1]⟩ : Shape).Idx → EReal) (h : (⟨2, ![a, k2]⟩ : Shape).Idx → EReal)
    (Wx : (⟨2, ![n, k1]⟩ : Shape).Idx → EReal) (Wh : (⟨2, ![n, k2]⟩ : Shape).Idx → EReal)
    (b : (⟨1, ![n]⟩ : Shape).Idx → EReal)
    (x' : (⟨2, ![a', k1]⟩ : Shape).Idx → EReal) (h' : (⟨2, ![a', k2]⟩ : Shape).Idx → EReal)
    (Wx' : (⟨2, ![n', k1]⟩ : Shape).Idx → EReal) (Wh' : (⟨2, ![n', k2]⟩ : Shape).Idx → EReal)
    (b' : (⟨1, ![n']⟩ : Shape).Idx → EReal)
    (r : Fin a) (q : Fin n) (r' : Fin a') (q' : Fin n')
    (hx : ∀ c, x (ix2 r c) = x' (ix2 r' c)) (hh : ∀ c, h (ix2 r c) = h' (ix2 r' c))
    (hWx : ∀ c, Wx (ix2 q c) = Wx' (ix2 q' c)) (hWh : ∀ c, Wh (ix2 q c) = Wh' (ix2 q' c))
    (hb : b (ix1 q) = b' (ix1 q')) :
    relu2 x h Wx Wh b (ix2 r q) = relu2 x' h' Wx' Wh' b' (ix2 r' q') := by
  show max (prod x Wx (ix2 r q) + prod h Wh (ix2 r q) + b (ix1 q)) 0
    = max (prod x' Wx' (ix2 r' q') + prod h' Wh' (ix2 r' q') + b' (ix1 q')) 0
  rw [prod_congr x Wx x' Wx' r q r' q' hx hWx, prod_congr h Wh h' Wh' r q r' q' hh hWh, hb]

/-! ## The tile's spelling -/

section Tile

variable (d : DotDims ⟨2, ![a, k]⟩ ⟨2, ![n, k]⟩ ⟨2, ![a, n]⟩)
  (hlc : d.lhsContracting = [1]) (hrc : d.rhsContracting = [1]) (hln : d.lhsNonContracting = [0])
  (hrn : d.rhsNonContracting = [0]) (hlb : d.lhsBatch = []) (hrb : d.rhsBatch = [])

include hlc hrc hln hrn hlb hrb in
/-- The matrix unit's product into a zero accumulator, each operand first cast to its own shape, is the product. -/
theorem tile_prod {φ₁ φ₂ : FTy} (x : FVec Ideal ⟨2, ![a, k]⟩ φ₁) (W : FVec Ideal ⟨2, ![n, k]⟩ φ₂)
    (hc1 : (⟨2, ![a, k]⟩ : Shape).ShapeCasts ⟨2, ![a, k]⟩) (hc2 : (⟨2, ![n, k]⟩ : Shape).ShapeCasts ⟨2, ![n, k]⟩) :
    matmul d none (shapeCast ⟨2, ![a, k]⟩ x hc1) (shapeCast ⟨2, ![n, k]⟩ W hc2)
        (constant (F := Ideal) ⟨2, ![a, n]⟩ .f32 0x00000000#32)
      = prod x W := by
  funext j
  obtain ⟨r, q, rfl⟩ : ∃ (r : Fin a) (q : Fin n), j = ix2 r q := ⟨j 0, j 1, eq_ix2 j⟩
  rw [shapeCast_self x hc1, shapeCast_self W hc2]
  exact Cert.LibDotsNT.nt_matmul_zero_apply d hlc hrc hln hrn hlb hrb none x W r q

end Tile

/-- The bias vector cast to one row and spread over the rows, added to an array: at (r, q) the array's entry plus b(q). -/
theorem tile_bias_apply (P : FVec Ideal ⟨2, ![a, n]⟩ .f32) (b : FVec Ideal ⟨1, ![n]⟩ .f32)
    (hc : (⟨1, ![n]⟩ : Shape).ShapeCasts ⟨2, ![1, n]⟩) (hb : (⟨2, ![1, n]⟩ : Shape).Broadcasts ⟨2, ![a, n]⟩)
    (r : Fin a) (q : Fin n) :
    addf P (broadcastTo ⟨2, ![a, n]⟩ (shapeCast ⟨2, ![1, n]⟩ b hc) hb) (ix2 r q) = P (ix2 r q) + b (ix1 q) := by
  rw [addf_apply, broadcastTo_1b_ab_apply, shapeCast_a_1a_apply]

/-- The rectifier against a splat zero, then the rounding to bfloat16: at an entry the maximum with 0. -/
theorem tile_rect_apply {s : Shape} (Q : FVec Ideal s .f32) (hlt : FTy.bf16.bits < FTy.f32.bits) (i : s.Idx) :
    (truncf .bf16 (maximumf Q (broadcast s (Scalar.ofBits (F := Ideal) .f32 0x00000000#32))) hlt : FVec Ideal s .bf16) i
      = max (Q i) 0 := by
  rw [truncf_apply, maximumf_apply, broadcast_apply]
  show max (Q i) (Ideal.ofBits .f32 0x00000000#32) = max (Q i) 0
  rw [Ideal.ofBits_zero_f32]

/-! ## The host's spelling -/

section Host

variable (d : DotDims ⟨2, ![a, k]⟩ ⟨2, ![n, k]⟩ ⟨2, ![a, n]⟩)
  (hlc : d.lhsContracting = [1]) (hrc : d.rhsContracting = [1]) (hln : d.lhsNonContracting = [0])
  (hrn : d.rhsNonContracting = [0]) (hlb : d.lhsBatch = []) (hrb : d.rhsBatch = [])

include hlc hrc hln hrn hlb hrb in
/-- The host's dot_general is the product. -/
theorem host_prod (h : FVec Ideal ⟨2, ![a, k]⟩ .f32) (W : FVec Ideal ⟨2, ![n, k]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.nt_dotGeneral_apply d hlc hrc hln hrn hlb hrb none .single h W r q

end Host

/-- The bias vector laid out as one row by broadcast_in_dim along axis 1 and laid over the rows by a second
    broadcast_in_dim, added to an array: at (r, q) the array's entry plus b(q). -/
theorem host_bias_apply (P : FVec Ideal ⟨2, ![a, n]⟩ .f32) (b : FVec Ideal ⟨1, ![n]⟩ .f32)
    (hb1 : (⟨1, ![n]⟩ : Shape).BroadcastsInDim ⟨2, ![1, n]⟩ ![1])
    (hB : (⟨2, ![1, n]⟩ : Shape).BroadcastsInDim ⟨2, ![a, n]⟩ ![0, 1]) (r : Fin a) (q : Fin n) :
    addf P (broadcastInDim ⟨2, ![a, n]⟩ ![0, 1] hB (broadcastInDim ⟨2, ![1, n]⟩ ![1] hb1 b)) (ix2 r q)
      = P (ix2 r q) + b (ix1 q) := by
  rw [Cert.Dense.host_biased]
  congr 1
  refine broadcastInDim_apply ![1] hb1 b (ix2 (0 : Fin 1) q) (ix1 q) fun ax => ?_
  match ax with
  | ⟨0, _⟩ =>
    show q.val = if n = 1 then 0 else q.val
    split
    · have := q.isLt; omega
    · rfl

/-- The host's rectifier: the maximum with a scalar zero laid over the array. -/
theorem host_rect_apply {s : Shape} (Q : FVec Ideal s .f32)
    (hz : (⟨0, ![]⟩ : Shape).BroadcastsInDim s ![]) (i : s.Idx) :
    maximumf Q (broadcastInDim s ![] hz (constant (F := Ideal) ⟨0, ![]⟩ .f32 0x00000000#32)) i = max (Q i) 0 := by
  rw [maximumf_apply]
  congr 1
  rw [broadcastInDim_apply ![] hz _ i ix0 (fun ax => ax.elim0), constant_apply, Ideal.ofBits_zero_f32]

/-- The hyperbolic tangent of an array, at an entry. -/
theorem tanh_apply {s : Shape} (v : FVec Ideal s .f32) (i : s.Idx) : tanh v i = Ideal.tanh (v i) := rfl

/-! ## The whole tile, as the kernels spell it -/

section TileForms

variable (d : DotDims ⟨2, ![a, k]⟩ ⟨2, ![n, k]⟩ ⟨2, ![a, n]⟩)
  (hlc : d.lhsContracting = [1]) (hrc : d.rhsContracting = [1]) (hln : d.lhsNonContracting = [0])
  (hrn : d.rhsNonContracting = [0]) (hlb : d.lhsBatch = []) (hrb : d.rhsBatch = [])

include hlc hrc hln hrn hlb hrb in
/-- Product, bias row, rectifier, rounding: the rectified layer. -/
theorem tile_relu {φ₁ φ₂ : FTy} (x : FVec Ideal ⟨2, ![a, k]⟩ φ₁) (W : FVec Ideal ⟨2, ![n, k]⟩ φ₂) (b : FVec Ideal ⟨1, ![n]⟩ .f32)
    (hc1 : (⟨2, ![a, k]⟩ : Shape).ShapeCasts ⟨2, ![a, k]⟩) (hc2 : (⟨2, ![n, k]⟩ : Shape).ShapeCasts ⟨2, ![n, k]⟩)
    (hc0 : (⟨1, ![n]⟩ : Shape).ShapeCasts ⟨1, ![n]⟩) (hc : (⟨1, ![n]⟩ : Shape).ShapeCasts ⟨2, ![1, n]⟩)
    (hb : (⟨2, ![1, n]⟩ : Shape).Broadcasts ⟨2, ![a, n]⟩) (hlt : FTy.bf16.bits < FTy.f32.bits) :
    (truncf .bf16 (maximumf (addf (matmul d none (shapeCast ⟨2, ![a, k]⟩ x hc1) (shapeCast ⟨2, ![n, k]⟩ W hc2)
          (constant (F := Ideal) ⟨2, ![a, n]⟩ .f32 0x00000000#32))
        (broadcastTo ⟨2, ![a, n]⟩ (shapeCast ⟨2, ![1, n]⟩ (shapeCast ⟨1, ![n]⟩ b hc0) hc) hb))
      (broadcast ⟨2, ![a, n]⟩ (Scalar.ofBits (F := Ideal) .f32 0x00000000#32))) hlt : FVec Ideal ⟨2, ![a, n]⟩ .bf16)
      = relu x W b := by
  funext j
  obtain ⟨r, q, rfl⟩ : ∃ (r : Fin a) (q : Fin n), j = ix2 r q := ⟨j 0, j 1, eq_ix2 j⟩
  rw [tile_rect_apply, tile_bias_apply, shapeCast_self b hc0, tile_prod d hlc hrc hln hrn hlb hrb]
  rfl

include hlc hrc hln hrn hlb hrb in
/-- Product, bias row, hyperbolic tangent. -/
theorem tile_tanh {φ₁ φ₂ : FTy} (x : FVec Ideal ⟨2, ![a, k]⟩ φ₁) (W : FVec Ideal ⟨2, ![n, k]⟩ φ₂) (b : FVec Ideal ⟨1, ![n]⟩ .f32)
    (hc1 : (⟨2, ![a, k]⟩ : Shape).ShapeCasts ⟨2, ![a, k]⟩) (hc2 : (⟨2, ![n, k]⟩ : Shape).ShapeCasts ⟨2, ![n, k]⟩)
    (hc : (⟨1, ![n]⟩ : Shape).ShapeCasts ⟨2, ![1, n]⟩) (hb : (⟨2, ![1, n]⟩ : Shape).Broadcasts ⟨2, ![a, n]⟩) :
    tanh (addf (matmul d none (shapeCast ⟨2, ![a, k]⟩ x hc1) (shapeCast ⟨2, ![n, k]⟩ W hc2)
          (constant (F := Ideal) ⟨2, ![a, n]⟩ .f32 0x00000000#32))
        (broadcastTo ⟨2, ![a, n]⟩ (shapeCast ⟨2, ![1, n]⟩ b hc) hb))
      = tanhL x W b := by
  funext j
  obtain ⟨r, q, rfl⟩ : ∃ (r : Fin a) (q : Fin n), j = ix2 r q := ⟨j 0, j 1, eq_ix2 j⟩
  rw [tanh_apply, tile_bias_apply, tile_prod d hlc hrc hln hrn hlb hrb]
  rfl

include hlc hrc hln hrn hlb hrb in
/-- Product and bias row, no activation. -/
theorem tile_biased {φ₁ φ₂ : FTy} (x : FVec Ideal ⟨2, ![a, k]⟩ φ₁) (W : FVec Ideal ⟨2, ![n, k]⟩ φ₂) (b : FVec Ideal ⟨1, ![n]⟩ .f32)
    (hc1 : (⟨2, ![a, k]⟩ : Shape).ShapeCasts ⟨2, ![a, k]⟩) (hc2 : (⟨2, ![n, k]⟩ : Shape).ShapeCasts ⟨2, ![n, k]⟩)
    (hc : (⟨1, ![n]⟩ : Shape).ShapeCasts ⟨2, ![1, n]⟩) (hb : (⟨2, ![1, n]⟩ : Shape).Broadcasts ⟨2, ![a, n]⟩) :
    addf (matmul d none (shapeCast ⟨2, ![a, k]⟩ x hc1) (shapeCast ⟨2, ![n, k]⟩ W hc2)
          (constant (F := Ideal) ⟨2, ![a, n]⟩ .f32 0x00000000#32))
        (broadcastTo ⟨2, ![a, n]⟩ (shapeCast ⟨2, ![1, n]⟩ b hc) hb)
      = biased x W b := by
  funext j
  obtain ⟨r, q, rfl⟩ : ∃ (r : Fin a) (q : Fin n), j = ix2 r q := ⟨j 0, j 1, eq_ix2 j⟩
  rw [tile_bias_apply, tile_prod d hlc hrc hln hrn hlb hrb]
  rfl

end TileForms

section TileForm2

variable {k1 k2 : ℕ} (d1 : DotDims ⟨2, ![a, k1]⟩ ⟨2, ![n, k1]⟩ ⟨2, ![a, n]⟩)
  (hlc1 : d1.lhsContracting = [1]) (hrc1 : d1.rhsContracting = [1]) (hln1 : d1.lhsNonContracting = [0])
  (hrn1 : d1.rhsNonContracting = [0]) (hlb1 : d1.lhsBatch = []) (hrb1 : d1.rhsBatch = [])
  (d2 : DotDims ⟨2, ![a, k2]⟩ ⟨2, ![n, k2]⟩ ⟨2, ![a, n]⟩)
  (hlc2 : d2.lhsContracting = [1]) (hrc2 : d2.rhsContracting = [1]) (hln2 : d2.lhsNonContracting = [0])
  (hrn2 : d2.rhsNonContracting = [0]) (hlb2 : d2.lhsBatch = []) (hrb2 : d2.rhsBatch = [])

include hlc1 hrc1 hln1 hrn1 hlb1 hrb1 hlc2 hrc2 hln2 hrn2 hlb2 hrb2 in
/-- Two products added, bias row, rectifier, rounding: the two-input rectified layer. -/
theorem tile_relu2 {φ₁ φ₂ φ₃ φ₄ : FTy} (x : FVec Ideal ⟨2, ![a, k1]⟩ φ₁) (Wx : FVec Ideal ⟨2, ![n, k1]⟩ φ₂)
    (h : FVec Ideal ⟨2, ![a, k2]⟩ φ₃) (Wh : FVec Ideal ⟨2, ![n, k2]⟩ φ₄) (b : FVec Ideal ⟨1, ![n]⟩ .f32)
    (hc1 : (⟨2, ![a, k1]⟩ : Shape).ShapeCasts ⟨2, ![a, k1]⟩) (hc2 : (⟨2, ![n, k1]⟩ : Shape).ShapeCasts ⟨2, ![n, k1]⟩)
    (hc3 : (⟨2, ![a, k2]⟩ : Shape).ShapeCasts ⟨2, ![a, k2]⟩) (hc4 : (⟨2, ![n, k2]⟩ : Shape).ShapeCasts ⟨2, ![n, k2]⟩)
    (hc0 : (⟨1, ![n]⟩ : Shape).ShapeCasts ⟨1, ![n]⟩) (hc : (⟨1, ![n]⟩ : Shape).ShapeCasts ⟨2, ![1, n]⟩)
    (hb : (⟨2, ![1, n]⟩ : Shape).Broadcasts ⟨2, ![a, n]⟩) (hlt : FTy.bf16.bits < FTy.f32.bits) :
    (truncf .bf16 (maximumf (addf (addf
          (matmul d1 none (shapeCast ⟨2, ![a, k1]⟩ x hc1) (shapeCast ⟨2, ![n, k1]⟩ Wx hc2)
            (constant (F := Ideal) ⟨2, ![a, n]⟩ .f32 0x00000000#32))
          (matmul d2 none (shapeCast ⟨2, ![a, k2]⟩ h hc3) (shapeCast ⟨2, ![n, k2]⟩ Wh hc4)
            (constant (F := Ideal) ⟨2, ![a, n]⟩ .f32 0x00000000#32)))
        (broadcastTo ⟨2, ![a, n]⟩ (shapeCast ⟨2, ![1, n]⟩ (shapeCast ⟨1, ![n]⟩ b hc0) hc) hb))
      (broadcast ⟨2, ![a, n]⟩ (Scalar.ofBits (F := Ideal) .f32 0x00000000#32))) hlt : FVec Ideal ⟨2, ![a, n]⟩ .bf16)
      = relu2 x h Wx Wh b := by
  funext j
  obtain ⟨r, q, rfl⟩ : ∃ (r : Fin a) (q : Fin n), j = ix2 r q := ⟨j 0, j 1, eq_ix2 j⟩
  rw [tile_rect_apply, tile_bias_apply, shapeCast_self b hc0, addf_apply,
    tile_prod d1 hlc1 hrc1 hln1 hrn1 hlb1 hrb1, tile_prod d2 hlc2 hrc2 hln2 hrn2 hlb2 hrb2]
  rfl

end TileForm2

/-! ## The whole layer, as the host spells it -/

section HostForms

variable (d : DotDims ⟨2, ![a, k]⟩ ⟨2, ![n, k]⟩ ⟨2, ![a, n]⟩)
  (hlc : d.lhsContracting = [1]) (hrc : d.rhsContracting = [1]) (hln : d.lhsNonContracting = [0])
  (hrn : d.rhsNonContracting = [0]) (hlb : d.lhsBatch = []) (hrb : d.rhsBatch = [])

include hlc hrc hln hrn hlb hrb in
theorem host_biased (h : FVec Ideal ⟨2, ![a, k]⟩ .f32) (W : FVec Ideal ⟨2, ![n, k]⟩ .f32) (b : FVec Ideal ⟨1, ![n]⟩ .f32)
    (hb1 : (⟨1, ![n]⟩ : Shape).BroadcastsInDim ⟨2, ![1, n]⟩ ![1])
    (hB : (⟨2, ![1, n]⟩ : Shape).BroadcastsInDim ⟨2, ![a, n]⟩ ![0, 1]) :
    addf (Host.dotGeneral (F := Ideal) d none h W)
        (broadcastInDim ⟨2, ![a, n]⟩ ![0, 1] hB (broadcastInDim ⟨2, ![1, n]⟩ ![1] hb1 b))
      = biased h W b := by
  funext j
  obtain ⟨r, q, rfl⟩ : ∃ (r : Fin a) (q : Fin n), j = ix2 r q := ⟨j 0, j 1, eq_ix2 j⟩
  rw [host_bias_apply, host_prod d hlc hrc hln hrn hlb hrb]
  rfl

include hlc hrc hln hrn hlb hrb in
theorem host_relu (h : FVec Ideal ⟨2, ![a, k]⟩ .f32) (W : FVec Ideal ⟨2, ![n, k]⟩ .f32) (b : FVec Ideal ⟨1, ![n]⟩ .f32)
    (hb1 : (⟨1, ![n]⟩ : Shape).BroadcastsInDim ⟨2, ![1, n]⟩ ![1])
    (hB : (⟨2, ![1, n]⟩ : Shape).BroadcastsInDim ⟨2, ![a, n]⟩ ![0, 1])
    (hz : (⟨0, ![]⟩ : Shape).BroadcastsInDim ⟨2, ![a, n]⟩ ![]) :
    maximumf (addf (Host.dotGeneral (F := Ideal) d none h W)
          (broadcastInDim ⟨2, ![a, n]⟩ ![0, 1] hB (broadcastInDim ⟨2, ![1, n]⟩ ![1] hb1 b)))
        (broadcastInDim ⟨2, ![a, n]⟩ ![] hz (constant (F := Ideal) ⟨0, ![]⟩ .f32 0x00000000#32))
      = relu h W b := by
  funext j
  rw [host_rect_apply, host_biased d hlc hrc hln hrn hlb hrb]
  rfl

include hlc hrc hln hrn hlb hrb in
theorem host_tanh (h : FVec Ideal ⟨2, ![a, k]⟩ .f32) (W : FVec Ideal ⟨2, ![n, k]⟩ .f32) (b : FVec Ideal ⟨1, ![n]⟩ .f32)
    (hb1 : (⟨1, ![n]⟩ : Shape).BroadcastsInDim ⟨2, ![1, n]⟩ ![1])
    (hB : (⟨2, ![1, n]⟩ : Shape).BroadcastsInDim ⟨2, ![a, n]⟩ ![0, 1]) :
    Host.tanh (addf (Host.dotGeneral (F := Ideal) d none h W)
          (broadcastInDim ⟨2, ![a, n]⟩ ![0, 1] hB (broadcastInDim ⟨2, ![1, n]⟩ ![1] hb1 b)))
      = tanhL h W b := by
  rw [host_biased d hlc hrc hln hrn hlb hrb]
  rfl

end HostForms

/-! ## Two arrays joined side by side against one weight matrix -/

/-- A sum over k1 + k2 consecutive indices is the sum over the first k1 plus the sum over the last k2. -/
theorem sum_split {k1 k2 kk : ℕ} (hk : k1 + k2 = kk) (f : Fin kk → EReal) :
    ∑ c : Fin kk, f c
      = ∑ c : Fin k1, f ⟨c.val, by omega⟩ + ∑ c : Fin k2, f ⟨k1 + c.val, by omega⟩ := by
  subst hk
  rw [Fin.sum_univ_add]
  rfl

/-- A layer over the join of x and h, its weight matrix cut at the same column, is the two-input layer: the sum over
    the joined axis splits at the seam, and addition on the extended reals is associative. -/
theorem relu_join {k1 k2 kk : ℕ} (hk : k1 + k2 = kk)
    (J : (⟨2, ![a, kk]⟩ : Shape).Idx → EReal) (W : (⟨2, ![n, kk]⟩ : Shape).Idx → EReal)
    (x : (⟨2, ![a, k1]⟩ : Shape).Idx → EReal) (h : (⟨2, ![a, k2]⟩ : Shape).Idx → EReal)
    (Wx : (⟨2, ![n, k1]⟩ : Shape).Idx → EReal) (Wh : (⟨2, ![n, k2]⟩ : Shape).Idx → EReal)
    (b : (⟨1, ![n]⟩ : Shape).Idx → EReal)
    (hJx : ∀ (r : Fin a) (c : Fin k1), J (ix2 r ⟨c.val, by omega⟩) = x (ix2 r c))
    (hJh : ∀ (r : Fin a) (c : Fin k2), J (ix2 r ⟨k1 + c.val, by omega⟩) = h (ix2 r c))
    (hWx : ∀ (q : Fin n) (c : Fin k1), W (ix2 q ⟨c.val, by omega⟩) = Wx (ix2 q c))
    (hWh : ∀ (q : Fin n) (c : Fin k2), W (ix2 q ⟨k1 + c.val, by omega⟩) = Wh (ix2 q c)) :
    relu J W b = relu2 x h Wx Wh b := by
  funext j
  obtain ⟨r, q, rfl⟩ : ∃ (r : Fin a) (q : Fin n), j = ix2 r q := ⟨j 0, j 1, eq_ix2 j⟩
  show max (prod J W (ix2 r q) + b (ix1 q)) 0 = max (prod x Wx (ix2 r q) + prod h Wh (ix2 r q) + b (ix1 q)) 0
  rw [prod_ix2, prod_ix2, prod_ix2, sum_split hk]
  congr 2
  congr 1
  · exact Finset.sum_congr rfl fun c _ => by rw [hJx r c, hWx q c]
  · exact Finset.sum_congr rfl fun c _ => by rw [hJh r c, hWh q c]

end Cert.DenseNT

end
-- ==== Proof.Layer0.lean ====
/-
  Pallas call 0 (the first rectified layer, fed by two arrays, on 512-row blocks): the array it leaves, as one function
  of the arrays it finds.

  Grid point t loads rows 512 t .. 512 t + 511 of x and of h, the two weight matrices and the bias vector whole, and
  stores max(x-block . Wx^T + h-block . Wh^T + b, 0) into the same rows of the result.  An entry reads one row of x and
  one row of h, so the block's entry (p, q) is the whole layer's entry (512 t + p, q); the eight blocks cover the 4096
  rows.
-/
import proofs.«180260_j81827716924021_2_alg».proof.Proof.Gen.KernelIdeal.Frame
import proofs.«180260_j81827716924021_2_alg».proof.Proof.LibDenseNT
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer0

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic is the two-input rectified layer of the five loaded blocks. -/
theorem pay_eq (x0 : Vec Ideal S512x512 .bf16) (x2 : Vec Ideal S2560x512 .bf16) (x5 : Vec Ideal S512x2048 .bf16)
    (x7 : Vec Ideal S2560x2048 .bf16) (x11 : Vec Ideal S2560 .f32) :
    k0_pay1 x0 x2 x5 x7 x11
      = Cert.DenseNT.relu2 (a := 512) (n := 2560) (k1 := 512) (k2 := 2048) x0 x5 x2 x7 x11 :=
  Cert.DenseNT.tile_relu2 dot_S512x512_S2560x512_S512x2560_1_1_0_0_n_n rfl rfl rfl rfl rfl rfl
    dot_S512x2048_S2560x2048_S512x2560_1_1_0_0_n_n rfl rfl rfl rfl rfl rfl x0 x2 x5 x7 x11 _ _ _ _ _ _ _ _

/-! The printed index maps over the grid: the two activation blocks and the result block move down the rows with the
    point, the weight matrices and the bias stay. -/
theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 1) = 0 :=
  (by decide +kernel : ∀ t : Fin grid0.N, _)
theorem idx_5 : ∀ t : Fin cfg0.N, win0_5.index t (0 : Fin 2) = t.val ∧ win0_5.index t (1 : Fin 2) = 0 :=
  (by decide +kernel : ∀ t : Fin grid0.N, _)
theorem t_lt : ∀ t : Fin cfg0.N, t.val < 8 := (by decide +kernel : ∀ t : Fin grid0.N, _)

theorem iblk_x (c : Dev nD) (t : Fin cfg0.N) (p : Fin 512) (e : Fin 512) (r : Fin 4096) (hr : r.val = 512 * t.val + p.val) :
    (iblk0 V c 0 t : S512x512.Idx → EReal) (ix2 p e) = (V c main_v0 : S4096x512.Idx → EReal) (ix2 r e) := by
  have e0 := (idx_0 t).1
  have e1 := (idx_0 t).2
  unfold iblk0
  rw [View.read_apply]
  show V c main_v0 _ = V c main_v0 _
  congr 1
  funext a
  apply Fin.ext
  match a with
  | ⟨0, _⟩ => show win0_0.index t 0 * 512 + 1 * p.val = r.val; rw [e0, hr]; omega
  | ⟨1, _⟩ => show win0_0.index t 1 * 512 + 1 * e.val = e.val; rw [e1]; omega

theorem iblk_h (c : Dev nD) (t : Fin cfg0.N) (p : Fin 512) (e : Fin 2048) (r : Fin 4096) (hr : r.val = 512 * t.val + p.val) :
    (iblk0 V c 1 t : S512x2048.Idx → EReal) (ix2 p e) = (V c main_v1 : S4096x2048.Idx → EReal) (ix2 r e) := by
  have e0 := (idx_1 t).1
  have e1 := (idx_1 t).2
  unfold iblk0
  rw [View.read_apply]
  show V c main_v1 _ = V c main_v1 _
  congr 1
  funext a
  apply Fin.ext
  match a with
  | ⟨0, _⟩ => show win0_1.index t 0 * 512 + 1 * p.val = r.val; rw [e0, hr]; omega
  | ⟨1, _⟩ => show win0_1.index t 1 * 2048 + 1 * e.val = e.val; rw [e1]; omega

theorem iblk_wx (c : Dev nD) (t : Fin cfg0.N) (q : Fin 2560) (e : Fin 512) :
    (iblk0 V c 2 t : S2560x512.Idx → EReal) (ix2 q e) = (V c main_v5 : S2560x512.Idx → EReal) (ix2 q e) := by
  have e0 := (idx_2 t).1
  have e1 := (idx_2 t).2
  unfold iblk0
  rw [View.read_apply]
  show V c main_v5 _ = V c main_v5 _
  congr 1
  funext a
  apply Fin.ext
  match a with
  | ⟨0, _⟩ => show win0_2.index t 0 * 2560 + 1 * q.val = q.val; rw [e0]; omega
  | ⟨1, _⟩ => show win0_2.index t 1 * 512 + 1 * e.val = e.val; rw [e1]; omega

theorem iblk_wh (c : Dev nD) (t : Fin cfg0.N) (q : Fin 2560) (e : Fin 2048) :
    (iblk0 V c 3 t : S2560x2048.Idx → EReal) (ix2 q e) = (V c main_v6 : S2560x2048.Idx → EReal) (ix2 q e) := by
  have e0 := (idx_3 t).1
  have e1 := (idx_3 t).2
  unfold iblk0
  rw [View.read_apply]
  show V c main_v6 _ = V c main_v6 _
  congr 1
  funext a
  apply Fin.ext
  match a with
  | ⟨0, _⟩ => show win0_3.index t 0 * 2560 + 1 * q.val = q.val; rw [e0]; omega
  | ⟨1, _⟩ => show win0_3.index t 1 * 2048 + 1 * e.val = e.val; rw [e1]; omega

theorem iblk_b (c : Dev nD) (t : Fin cfg0.N) (q : Fin 2560) :
    (iblk0 V c 4 t : S2560.Idx → EReal) (ix1 q) = (V c main_v8 : S2560.Idx → EReal) (ix1 q) := by
  have e0 := idx_4 t
  unfold iblk0
  rw [View.read_apply]
  show V c main_v8 _ = V c main_v8 _
  congr 1
  funext a
  apply Fin.ext
  match a with
  | ⟨0, _⟩ => show win0_4.index t 0 * 2560 + 1 * q.val = q.val; rw [e0]; omega

/-- The array the call leaves: the two-input rectified layer of the arrays it finds. -/
abbrev G (c : Dev nD) : S4096x2560.Idx → EReal :=
  Cert.DenseNT.relu2 (a := 4096) (n := 2560) (k1 := 512) (k2 := 2048) (V c main_v0 : S4096x512.Idx → EReal)
    (V c main_v1 : S4096x2048.Idx → EReal) (V c main_v5 : S2560x512.Idx → EReal) (V c main_v6 : S2560x2048.Idx → EReal)
    (V c main_v8 : S2560.Idx → EReal)

/-- What point t writes back through window 5 is block t of the layer over the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S512x512) hz2, View.ld_unit_zero (S := S512x2048) hz2, View.ld_unit_zero (S := S2560x512) hz2, View.ld_unit_zero (S := S2560x2048) hz2, View.ld_unit_zero (S := S2560) hz1]
  rw [pay_eq]
  have e0 := (idx_5 t).1
  have e1 := (idx_5 t).2
  have ht := t_lt t
  funext j
  obtain ⟨p, q, rfl⟩ : ∃ (p : Fin 512) (q : Fin 2560), j = ix2 p q := ⟨j 0, j 1, eq_ix2 j⟩
  have hi : ((cfg0.win 5).blk t).view.emb (ix2 p q) = ix2 (⟨512 * t.val + p.val, by omega⟩ : Fin 4096) q := by
    funext a
    apply Fin.ext
    match a with
    | ⟨0, _⟩ => show win0_5.index t 0 * 512 + 1 * p.val = 512 * t.val + p.val; rw [e0]; omega
    | ⟨1, _⟩ => show win0_5.index t 1 * 2560 + 1 * q.val = q.val; rw [e1]; omega
  show Cert.DenseNT.relu2 (a := 512) (n := 2560) (k1 := 512) (k2 := 2048) (iblk0 V c 0 t) (iblk0 V c 1 t) (iblk0 V c 2 t) (iblk0 V c 3 t) (iblk0 V c 4 t) (ix2 p q)
    = G V c (((cfg0.win 5).blk t).view.emb (ix2 p q))
  rw [hi]
  exact Cert.DenseNT.relu2_congr _ _ _ _ _ _ _ _ _ _ p q _ q (fun e => iblk_x V c t p e _ rfl) (fun e => iblk_h V c t p e _ rfl) (fun e => iblk_wx V c t q e) (fun e => iblk_wh V c t q e) (iblk_b V c t q)

/-- An index of the result is in point t's block iff each coordinate is in the block's range on its axis. -/
theorem mem_blk (t : Fin cfg0.N) (i : S4096x2560.Idx) :
    i ∈ ((cfg0.win 5).blk t).view.set ↔ ∀ a : Fin 2, win0_5.index t a * S512x2560.size a ≤ (i a).val ∧ (i a).val < win0_5.index t a * S512x2560.size a + S512x2560.size a := by
  show i ∈ ((View.whole main_v9).slice (win0_5.rect t)).set ↔ _
  rw [View.set_slice_whole, Rect.mem_set_unit]
  exact Iff.rfl

/-- The eight row blocks cover the result. -/
theorem cover (i : S4096x2560.Idx) : ∃ t : Fin cfg0.N, (cfg0.win 5).flush t = true ∧ i ∈ ((cfg0.win 5).blk t).view.set := by
  have hi0 : (i 0).val < 4096 := (i 0).isLt
  have hi1 : (i 1).val < 2560 := (i 1).isLt
  have hN : cfg0.N = 8 := N_0
  refine ⟨⟨(i 0).val / 512, by rw [hN]; omega⟩, flush0_5 _, ?_⟩
  rw [mem_blk]
  have e0 := (idx_5 (⟨(i 0).val / 512, by rw [hN]; omega⟩ : Fin cfg0.N)).1
  have e1 := (idx_5 (⟨(i 0).val / 512, by rw [hN]; omega⟩ : Fin cfg0.N)).2
  intro a
  match a with
  | ⟨0, _⟩ =>
    show win0_5.index _ 0 * 512 ≤ (i 0).val ∧ (i 0).val < win0_5.index _ 0 * 512 + 512
    rw [e0]; show (i 0).val / 512 * 512 ≤ (i 0).val ∧ (i 0).val < (i 0).val / 512 * 512 + 512; omega
  | ⟨1, _⟩ =>
    show win0_5.index _ 1 * 2560 ≤ (i 1).val ∧ (i 1).val < win0_5.index _ 1 * 2560 + 2560
    rw [e1]; omega

/-- The result array after the call. -/
theorem final (c : Dev nD) : (dat0 V c).arrAt 5 cfg0.N = G V c :=
  (dat0 V c).arrAt_eq_of_cover 5 (G V c) (fun t _ => flushed_eq V c t) (cover)

end Cert.KernelIdeal.Layer0

end
-- ==== Proof.Layer1.lean ====
/-
  Pallas call 1 (a rectified layer on 512-row blocks): the array it leaves, as one function of the arrays it finds.

  Grid point t loads rows 512 t .. 512 t + 511 of the activation array, the whole weight matrix and the whole bias
  vector, and stores max(block . W^T + b, 0) into the same rows of the result.  An entry of the rectified layer reads
  one row of the activations, so the block's entry (p, q) is the whole layer's entry (512 t + p, q); the eight blocks
  cover the 4096 rows, hence the result array is the rectified layer of the three arrays the call was entered with.
-/
import proofs.«180260_j81827716924021_2_alg».proof.Proof.Gen.KernelIdeal.Frame
import proofs.«180260_j81827716924021_2_alg».proof.Proof.LibDenseNT
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic is the rectified layer of the three loaded blocks. -/
theorem pay_eq (x0 : Vec Ideal S512x2560 .bf16) (x1 : Vec Ideal S2560x2560 .bf16) (x2 : Vec Ideal S2560 .f32) :
    k1_pay1 x0 x1 x2 = Cert.DenseNT.relu (a := 512) (k := 2560) (n := 2560) x0 x1 x2 :=
  Cert.DenseNT.tile_relu dot_S512x2560_S2560x2560_S512x2560_1_1_0_0_n_n rfl rfl rfl rfl rfl rfl x0 x1 x2 _ _ _ _ _ _

/-- The printed index maps over the grid: the activation and result blocks move down the rows with the point, the
    weight matrix and the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 ∧ t.val < 8 :=
  (by decide +kernel : ∀ t : Fin grid1.N, _)

/-- The activation block at point t is rows 512 t .. of the activation array. -/
theorem iblk_act (c : Dev nD) (t : Fin cfg1.N) (p : Fin 512) (e : Fin 2560) (r : Fin 4096) (hr : r.val = 512 * t.val + p.val) :
    (iblk1 V c 0 t : S512x2560.Idx → EReal) (ix2 p e) = (V c main_v9 : S4096x2560.Idx → EReal) (ix2 r e) := by
  obtain ⟨e0, e1, -⟩ := idx_facts t
  unfold iblk1
  rw [View.read_apply]
  show V c main_v9 _ = V c main_v9 _
  congr 1
  funext a
  apply Fin.ext
  match a with
  | ⟨0, _⟩ => show win1_0.index t 0 * 512 + 1 * p.val = r.val; rw [e0, hr]; omega
  | ⟨1, _⟩ => show win1_0.index t 1 * 2560 + 1 * e.val = e.val; rw [e1]; omega

/-- The weight block at every point is the whole weight matrix. -/
theorem iblk_w (c : Dev nD) (t : Fin cfg1.N) (q : Fin 2560) (e : Fin 2560) :
    (iblk1 V c 1 t : S2560x2560.Idx → EReal) (ix2 q e) = (V c main_v11 : S2560x2560.Idx → EReal) (ix2 q e) := by
  obtain ⟨-, -, e0, e1, -⟩ := idx_facts t
  unfold iblk1
  rw [View.read_apply]
  show V c main_v11 _ = V c main_v11 _
  congr 1
  funext a
  apply Fin.ext
  match a with
  | ⟨0, _⟩ => show win1_1.index t 0 * 2560 + 1 * q.val = q.val; rw [e0]; omega
  | ⟨1, _⟩ => show win1_1.index t 1 * 2560 + 1 * e.val = e.val; rw [e1]; omega

/-- The bias block at every point is the whole bias vector. -/
theorem iblk_b (c : Dev nD) (t : Fin cfg1.N) (q : Fin 2560) :
    (iblk1 V c 2 t : S2560.Idx → EReal) (ix1 q) = (V c main_v13 : S2560.Idx → EReal) (ix1 q) := by
  obtain ⟨-, -, -, -, e0, -⟩ := idx_facts t
  unfold iblk1
  rw [View.read_apply]
  show V c main_v13 _ = V c main_v13 _
  congr 1
  funext a
  apply Fin.ext
  match a with
  | ⟨0, _⟩ => show win1_2.index t 0 * 2560 + 1 * q.val = q.val; rw [e0]; omega

/-- The array the call leaves: the rectified layer of the arrays it finds. -/
abbrev G (c : Dev nD) : S4096x2560.Idx → EReal :=
  Cert.DenseNT.relu (a := 4096) (k := 2560) (n := 2560) (V c main_v9 : S4096x2560.Idx → EReal)
    (V c main_v11 : S2560x2560.Idx → EReal) (V c main_v13 : S2560.Idx → EReal)

/-- What point t writes back is block t of that layer. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz2]
  simp only [View.ld_unit_zero (S := S512x2560) hz2, View.ld_unit_zero (S := S2560x2560) hz2, View.ld_unit_zero (S := S2560) hz1]
  rw [pay_eq]
  obtain ⟨-, -, -, -, -, e0, e1, ht⟩ := idx_facts t
  funext j
  obtain ⟨p, q, rfl⟩ : ∃ (p : Fin 512) (q : Fin 2560), j = ix2 p q := ⟨j 0, j 1, eq_ix2 j⟩
  have hi : ((cfg1.win 3).blk t).view.emb (ix2 p q) = ix2 (⟨512 * t.val + p.val, by omega⟩ : Fin 4096) q := by
    funext a
    apply Fin.ext
    match a with
    | ⟨0, _⟩ => show win1_3.index t 0 * 512 + 1 * p.val = 512 * t.val + p.val; rw [e0]; omega
    | ⟨1, _⟩ => show win1_3.index t 1 * 2560 + 1 * q.val = q.val; rw [e1]; omega
  show Cert.DenseNT.relu (a := 512) (k := 2560) (n := 2560) (iblk1 V c 0 t) (iblk1 V c 1 t) (iblk1 V c 2 t) (ix2 p q)
    = G V c (((cfg1.win 3).blk t).view.emb (ix2 p q))
  rw [hi]
  exact Cert.DenseNT.relu_congr _ _ _ _ _ _ p q _ q (fun e => iblk_act V c t p e _ rfl) (fun e => iblk_w V c t q e) (iblk_b V c t q)

/-- An index of the result is in point t's block iff each coordinate is in the block's range on its axis. -/
theorem mem_blk (t : Fin cfg1.N) (i : S4096x2560.Idx) :
    i ∈ ((cfg1.win 3).blk t).view.set ↔ ∀ a : Fin 2, win1_3.index t a * S512x2560.size a ≤ (i a).val ∧ (i a).val < win1_3.index t a * S512x2560.size a + S512x2560.size a := by
  show i ∈ ((View.whole main_v14).slice (win1_3.rect t)).set ↔ _
  rw [View.set_slice_whole, Rect.mem_set_unit]
  exact Iff.rfl

/-- The eight row blocks cover the result. -/
theorem cover (i : S4096x2560.Idx) : ∃ t : Fin cfg1.N, (cfg1.win 3).flush t = true ∧ i ∈ ((cfg1.win 3).blk t).view.set := by
  have hi0 : (i 0).val < 4096 := (i 0).isLt
  have hi1 : (i 1).val < 2560 := (i 1).isLt
  have hN : cfg1.N = 8 := N_1
  refine ⟨⟨(i 0).val / 512, by rw [hN]; omega⟩, flush1_3 _, ?_⟩
  rw [mem_blk]
  obtain ⟨-, -, -, -, -, e0, e1, -⟩ := idx_facts (⟨(i 0).val / 512, by rw [hN]; omega⟩ : Fin cfg1.N)
  intro a
  match a with
  | ⟨0, _⟩ =>
    show win1_3.index _ 0 * 512 ≤ (i 0).val ∧ (i 0).val < win1_3.index _ 0 * 512 + 512
    rw [e0]; show (i 0).val / 512 * 512 ≤ (i 0).val ∧ (i 0).val < (i 0).val / 512 * 512 + 512; omega
  | ⟨1, _⟩ =>
    show win1_3.index _ 1 * 2560 ≤ (i 1).val ∧ (i 1).val < win1_3.index _ 1 * 2560 + 2560
    rw [e1]; omega

/-- The result array after the call is the rectified layer of the arrays the call was entered with. -/
theorem final (c : Dev nD) : (dat1 V c).arrAt 3 cfg1.N = G V c :=
  (dat1 V c).arrAt_eq_of_cover 3 (G V c) (fun t _ => flushed_eq V c t) (cover)

end Cert.KernelIdeal.Layer1

end
-- ==== Proof.Layer2.lean ====
/-
  Pallas call 2 (a rectified layer on 512-row blocks): the array it leaves, as one function of the arrays it finds.

  Grid point t loads rows 512 t .. 512 t + 511 of the activation array, the whole weight matrix and the whole bias
  vector, and stores max(block . W^T + b, 0) into the same rows of the result.  An entry of the rectified layer reads
  one row of the activations, so the block's entry (p, q) is the whole layer's entry (512 t + p, q); the eight blocks
  cover the 4096 rows, hence the result array is the rectified layer of the three arrays the call was entered with.
-/
import proofs.«180260_j81827716924021_2_alg».proof.Proof.Gen.KernelIdeal.Frame
import proofs.«180260_j81827716924021_2_alg».proof.Proof.LibDenseNT
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic is the rectified layer of the three loaded blocks. -/
theorem pay_eq (x0 : Vec Ideal S512x2560 .bf16) (x1 : Vec Ideal S2560x2560 .bf16) (x2 : Vec Ideal S2560 .f32) :
    k2_pay1 x0 x1 x2 = Cert.DenseNT.relu (a := 512) (k := 2560) (n := 2560) x0 x1 x2 :=
  Cert.DenseNT.tile_relu dot_S512x2560_S2560x2560_S512x2560_1_1_0_0_n_n rfl rfl rfl rfl rfl rfl x0 x1 x2 _ _ _ _ _ _

/-- The printed index maps over the grid: the activation and result blocks move down the rows with the point, the
    weight matrix and the bias stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 ∧ t.val < 8 :=
  (by decide +kernel : ∀ t : Fin grid2.N, _)

/-- The activation block at point t is rows 512 t .. of the activation array. -/
theorem iblk_act (c : Dev nD) (t : Fin cfg2.N) (p : Fin 512) (e : Fin 2560) (r : Fin 4096) (hr : r.val = 512 * t.val + p.val) :
    (iblk2 V c 0 t : S512x2560.Idx → EReal) (ix2 p e) = (V c main_v14 : S4096x2560.Idx → EReal) (ix2 r e) := by
  obtain ⟨e0, e1, -⟩ := idx_facts t
  unfold iblk2
  rw [View.read_apply]
  show V c main_v14 _ = V c main_v14 _
  congr 1
  funext a
  apply Fin.ext
  match a with
  | ⟨0, _⟩ => show win2_0.index t 0 * 512 + 1 * p.val = r.val; rw [e0, hr]; omega
  | ⟨1, _⟩ => show win2_0.index t 1 * 2560 + 1 * e.val = e.val; rw [e1]; omega

/-- The weight block at every point is the whole weight matrix. -/
theorem iblk_w (c : Dev nD) (t : Fin cfg2.N) (q : Fin 2560) (e : Fin 2560) :
    (iblk2 V c 1 t : S2560x2560.Idx → EReal) (ix2 q e) = (V c main_v16 : S2560x2560.Idx → EReal) (ix2 q e) := by
  obtain ⟨-, -, e0, e1, -⟩ := idx_facts t
  unfold iblk2
  rw [View.read_apply]
  show V c main_v16 _ = V c main_v16 _
  congr 1
  funext a
  apply Fin.ext
  match a with
  | ⟨0, _⟩ => show win2_1.index t 0 * 2560 + 1 * q.val = q.val; rw [e0]; omega
  | ⟨1, _⟩ => show win2_1.index t 1 * 2560 + 1 * e.val = e.val; rw [e1]; omega

/-- The bias block at every point is the whole bias vector. -/
theorem iblk_b (c : Dev nD) (t : Fin cfg2.N) (q : Fin 2560) :
    (iblk2 V c 2 t : S2560.Idx → EReal) (ix1 q) = (V c main_v18 : S2560.Idx → EReal) (ix1 q) := by
  obtain ⟨-, -, -, -, e0, -⟩ := idx_facts t
  unfold iblk2
  rw [View.read_apply]
  show V c main_v18 _ = V c main_v18 _
  congr 1
  funext a
  apply Fin.ext
  match a with
  | ⟨0, _⟩ => show win2_2.index t 0 * 2560 + 1 * q.val = q.val; rw [e0]; omega

/-- The array the call leaves: the rectified layer of the arrays it finds. -/
abbrev G (c : Dev nD) : S4096x2560.Idx → EReal :=
  Cert.DenseNT.relu (a := 4096) (k := 2560) (n := 2560) (V c main_v14 : S4096x2560.Idx → EReal)
    (V c main_v16 : S2560x2560.Idx → EReal) (V c main_v18 : S2560.Idx → EReal)

/-- What point t writes back is block t of that layer. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz2]
  simp only [View.ld_unit_zero (S := S512x2560) hz2, View.ld_unit_zero (S := S2560x2560) hz2, View.ld_unit_zero (S := S2560) hz1]
  rw [pay_eq]
  obtain ⟨-, -, -, -, -, e0, e1, ht⟩ := idx_facts t
  funext j
  obtain ⟨p, q, rfl⟩ : ∃ (p : Fin 512) (q : Fin 2560), j = ix2 p q := ⟨j 0, j 1, eq_ix2 j⟩
  have hi : ((cfg2.win 3).blk t).view.emb (ix2 p q) = ix2 (⟨512 * t.val + p.val, by omega⟩ : Fin 4096) q := by
    funext a
    apply Fin.ext
    match a with
    | ⟨0, _⟩ => show win2_3.index t 0 * 512 + 1 * p.val = 512 * t.val + p.val; rw [e0]; omega
    | ⟨1, _⟩ => show win2_3.index t 1 * 2560 + 1 * q.val = q.val; rw [e1]; omega
  show Cert.DenseNT.relu (a := 512) (k := 2560) (n := 2560) (iblk2 V c 0 t) (iblk2 V c 1 t) (iblk2 V c 2 t) (ix2 p q)
    = G V c (((cfg2.win 3).blk t).view.emb (ix2 p q))
  rw [hi]
  exact Cert.DenseNT.relu_congr _ _ _ _ _ _ p q _ q (fun e => iblk_act V c t p e _ rfl) (fun e => iblk_w V c t q e) (iblk_b V c t q)

/-- An index of the result is in point t's block iff each coordinate is in the block's range on its axis. -/
theorem mem_blk (t : Fin cfg2.N) (i : S4096x2560.Idx) :
    i ∈ ((cfg2.win 3).blk t).view.set ↔ ∀ a : Fin 2, win2_3.index t a * S512x2560.size a ≤ (i a).val ∧ (i a).val < win2_3.index t a * S512x2560.size a + S512x2560.size a := by
  show i ∈ ((View.whole main_v19).slice (win2_3.rect t)).set ↔ _
  rw [View.set_slice_whole, Rect.mem_set_unit]
  exact Iff.rfl

/-- The eight row blocks cover the result. -/
theorem cover (i : S4096x2560.Idx) : ∃ t : Fin cfg2.N, (cfg2.win 3).flush t = true ∧ i ∈ ((cfg2.win 3).blk t).view.set := by
  have hi0 : (i 0).val < 4096 := (i 0).isLt
  have hi1 : (i 1).val < 2560 := (i 1).isLt
  have hN : cfg2.N = 8 := N_2
  refine ⟨⟨(i 0).val / 512, by rw [hN]; omega⟩, flush2_3 _, ?_⟩
  rw [mem_blk]
  obtain ⟨-, -, -, -, -, e0, e1, -⟩ := idx_facts (⟨(i 0).val / 512, by rw [hN]; omega⟩ : Fin cfg2.N)
  intro a
  match a with
  | ⟨0, _⟩ =>
    show win2_3.index _ 0 * 512 ≤ (i 0).val ∧ (i 0).val < win2_3.index _ 0 * 512 + 512
    rw [e0]; show (i 0).val / 512 * 512 ≤ (i 0).val ∧ (i 0).val < (i 0).val / 512 * 512 + 512; omega
  | ⟨1, _⟩ =>
    show win2_3.index _ 1 * 2560 ≤ (i 1).val ∧ (i 1).val < win2_3.index _ 1 * 2560 + 2560
    rw [e1]; omega

/-- The result array after the call is the rectified layer of the arrays the call was entered with. -/
theorem final (c : Dev nD) : (dat2 V c).arrAt 3 cfg2.N = G V c :=
  (dat2 V c).arrAt_eq_of_cover 3 (G V c) (fun t _ => flushed_eq V c t) (cover)

end Cert.KernelIdeal.Layer2

end
-- ==== Proof.Layer3.lean ====
/-
  Pallas call 3 (a rectified layer on 512-row blocks): the array it leaves, as one function of the arrays it finds.

  Grid point t loads rows 512 t .. 512 t + 511 of the activation array, the whole weight matrix and the whole bias
  vector, and stores max(block . W^T + b, 0) into the same rows of the result.  An entry of the rectified layer reads
  one row of the activations, so the block's entry (p, q) is the whole layer's entry (512 t + p, q); the eight blocks
  cover the 4096 rows, hence the result array is the rectified layer of the three arrays the call was entered with.
-/
import proofs.«180260_j81827716924021_2_alg».proof.Proof.Gen.KernelIdeal.Frame
import proofs.«180260_j81827716924021_2_alg».proof.Proof.LibDenseNT
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer3

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic is the rectified layer of the three loaded blocks. -/
theorem pay_eq (x0 : Vec Ideal S512x2560 .bf16) (x1 : Vec Ideal S2560x2560 .bf16) (x2 : Vec Ideal S2560 .f32) :
    k3_pay1 x0 x1 x2 = Cert.DenseNT.relu (a := 512) (k := 2560) (n := 2560) x0 x1 x2 :=
  Cert.DenseNT.tile_relu dot_S512x2560_S2560x2560_S512x2560_1_1_0_0_n_n rfl rfl rfl rfl rfl rfl x0 x1 x2 _ _ _ _ _ _

/-- The printed index maps over the grid: the activation and result blocks move down the rows with the point, the
    weight matrix and the bias stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 ∧ t.val < 8 :=
  (by decide +kernel : ∀ t : Fin grid3.N, _)

/-- The activation block at point t is rows 512 t .. of the activation array. -/
theorem iblk_act (c : Dev nD) (t : Fin cfg3.N) (p : Fin 512) (e : Fin 2560) (r : Fin 4096) (hr : r.val = 512 * t.val + p.val) :
    (iblk3 V c 0 t : S512x2560.Idx → EReal) (ix2 p e) = (V c main_v19 : S4096x2560.Idx → EReal) (ix2 r e) := by
  obtain ⟨e0, e1, -⟩ := idx_facts t
  unfold iblk3
  rw [View.read_apply]
  show V c main_v19 _ = V c main_v19 _
  congr 1
  funext a
  apply Fin.ext
  match a with
  | ⟨0, _⟩ => show win3_0.index t 0 * 512 + 1 * p.val = r.val; rw [e0, hr]; omega
  | ⟨1, _⟩ => show win3_0.index t 1 * 2560 + 1 * e.val = e.val; rw [e1]; omega

/-- The weight block at every point is the whole weight matrix. -/
theorem iblk_w (c : Dev nD) (t : Fin cfg3.N) (q : Fin 2560) (e : Fin 2560) :
    (iblk3 V c 1 t : S2560x2560.Idx → EReal) (ix2 q e) = (V c main_v21 : S2560x2560.Idx → EReal) (ix2 q e) := by
  obtain ⟨-, -, e0, e1, -⟩ := idx_facts t
  unfold iblk3
  rw [View.read_apply]
  show V c main_v21 _ = V c main_v21 _
  congr 1
  funext a
  apply Fin.ext
  match a with
  | ⟨0, _⟩ => show win3_1.index t 0 * 2560 + 1 * q.val = q.val; rw [e0]; omega
  | ⟨1, _⟩ => show win3_1.index t 1 * 2560 + 1 * e.val = e.val; rw [e1]; omega

/-- The bias block at every point is the whole bias vector. -/
theorem iblk_b (c : Dev nD) (t : Fin cfg3.N) (q : Fin 2560) :
    (iblk3 V c 2 t : S2560.Idx → EReal) (ix1 q) = (V c main_v23 : S2560.Idx → EReal) (ix1 q) := by
  obtain ⟨-, -, -, -, e0, -⟩ := idx_facts t
  unfold iblk3
  rw [View.read_apply]
  show V c main_v23 _ = V c main_v23 _
  congr 1
  funext a
  apply Fin.ext
  match a with
  | ⟨0, _⟩ => show win3_2.index t 0 * 2560 + 1 * q.val = q.val; rw [e0]; omega

/-- The array the call leaves: the rectified layer of the arrays it finds. -/
abbrev G (c : Dev nD) : S4096x2560.Idx → EReal :=
  Cert.DenseNT.relu (a := 4096) (k := 2560) (n := 2560) (V c main_v19 : S4096x2560.Idx → EReal)
    (V c main_v21 : S2560x2560.Idx → EReal) (V c main_v23 : S2560.Idx → EReal)

/-- What point t writes back is block t of that layer. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz2]
  simp only [View.ld_unit_zero (S := S512x2560) hz2, View.ld_unit_zero (S := S2560x2560) hz2, View.ld_unit_zero (S := S2560) hz1]
  rw [pay_eq]
  obtain ⟨-, -, -, -, -, e0, e1, ht⟩ := idx_facts t
  funext j
  obtain ⟨p, q, rfl⟩ : ∃ (p : Fin 512) (q : Fin 2560), j = ix2 p q := ⟨j 0, j 1, eq_ix2 j⟩
  have hi : ((cfg3.win 3).blk t).view.emb (ix2 p q) = ix2 (⟨512 * t.val + p.val, by omega⟩ : Fin 4096) q := by
    funext a
    apply Fin.ext
    match a with
    | ⟨0, _⟩ => show win3_3.index t 0 * 512 + 1 * p.val = 512 * t.val + p.val; rw [e0]; omega
    | ⟨1, _⟩ => show win3_3.index t 1 * 2560 + 1 * q.val = q.val; rw [e1]; omega
  show Cert.DenseNT.relu (a := 512) (k := 2560) (n := 2560) (iblk3 V c 0 t) (iblk3 V c 1 t) (iblk3 V c 2 t) (ix2 p q)
    = G V c (((cfg3.win 3).blk t).view.emb (ix2 p q))
  rw [hi]
  exact Cert.DenseNT.relu_congr _ _ _ _ _ _ p q _ q (fun e => iblk_act V c t p e _ rfl) (fun e => iblk_w V c t q e) (iblk_b V c t q)

/-- An index of the result is in point t's block iff each coordinate is in the block's range on its axis. -/
theorem mem_blk (t : Fin cfg3.N) (i : S4096x2560.Idx) :
    i ∈ ((cfg3.win 3).blk t).view.set ↔ ∀ a : Fin 2, win3_3.index t a * S512x2560.size a ≤ (i a).val ∧ (i a).val < win3_3.index t a * S512x2560.size a + S512x2560.size a := by
  show i ∈ ((View.whole main_v24).slice (win3_3.rect t)).set ↔ _
  rw [View.set_slice_whole, Rect.mem_set_unit]
  exact Iff.rfl

/-- The eight row blocks cover the result. -/
theorem cover (i : S4096x2560.Idx) : ∃ t : Fin cfg3.N, (cfg3.win 3).flush t = true ∧ i ∈ ((cfg3.win 3).blk t).view.set := by
  have hi0 : (i 0).val < 4096 := (i 0).isLt
  have hi1 : (i 1).val < 2560 := (i 1).isLt
  have hN : cfg3.N = 8 := N_3
  refine ⟨⟨(i 0).val / 512, by rw [hN]; omega⟩, flush3_3 _, ?_⟩
  rw [mem_blk]
  obtain ⟨-, -, -, -, -, e0, e1, -⟩ := idx_facts (⟨(i 0).val / 512, by rw [hN]; omega⟩ : Fin cfg3.N)
  intro a
  match a with
  | ⟨0, _⟩ =>
    show win3_3.index _ 0 * 512 ≤ (i 0).val ∧ (i 0).val < win3_3.index _ 0 * 512 + 512
    rw [e0]; show (i 0).val / 512 * 512 ≤ (i 0).val ∧ (i 0).val < (i 0).val / 512 * 512 + 512; omega
  | ⟨1, _⟩ =>
    show win3_3.index _ 1 * 2560 ≤ (i 1).val ∧ (i 1).val < win3_3.index _ 1 * 2560 + 2560
    rw [e1]; omega

/-- The result array after the call is the rectified layer of the arrays the call was entered with. -/
theorem final (c : Dev nD) : (dat3 V c).arrAt 3 cfg3.N = G V c :=
  (dat3 V c).arrAt_eq_of_cover 3 (G V c) (fun t _ => flushed_eq V c t) (cover)

end Cert.KernelIdeal.Layer3

end
-- ==== Proof.Layer4.lean ====
/-
  Pallas call 4 (the two heads, on 512-row blocks): the two arrays it leaves, each as one function of the arrays it finds.

  Grid point t loads rows 512 t .. 512 t + 511 of the last hidden activations, both weight matrices and both bias
  vectors whole, and stores tanh(block . Wh^T + bh) into the same rows of the new hidden state and block . Wo^T + bo
  into the same rows of the output.  An entry of either reads one row of the activations, so the block's entry (p, q)
  is the whole layer's entry (512 t + p, q); the eight blocks cover the 4096 rows of each result.
-/
import proofs.«180260_j81827716924021_2_alg».proof.Proof.Gen.KernelIdeal.Frame
import proofs.«180260_j81827716924021_2_alg».proof.Proof.LibDenseNT
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Layer4

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The first store's arithmetic is the tanh layer of the loaded blocks. -/
theorem pay_eq_h (x0 : Vec Ideal S512x2560 .bf16) (x2 : Vec Ideal S2048x2560 .bf16) (x5 : Vec Ideal S2048 .f32) :
    k4_pay1 x0 x2 x5 = Cert.DenseNT.tanhL (a := 512) (k := 2560) (n := 2048) x0 x2 x5 :=
  Cert.DenseNT.tile_tanh dot_S512x2560_S2048x2560_S512x2048_1_1_0_0_n_n rfl rfl rfl rfl rfl rfl x0 x2 x5 _ _ _ _

/-- The second store's arithmetic is the affine layer of the loaded blocks. -/
theorem pay_eq_o (x11 : Vec Ideal S512x2560 .bf16) (x13 : Vec Ideal S512x2560 .bf16) (x16 : Vec Ideal S512 .f32) :
    k4_pay2 x11 x13 x16 = Cert.DenseNT.biased (a := 512) (k := 2560) (n := 512) x11 x13 x16 :=
  Cert.DenseNT.tile_biased dot_S512x2560_S512x2560_S512x512_1_1_0_0_n_n rfl rfl rfl rfl rfl rfl x11 x13 x16 _ _ _ _

/-! The printed index maps over the grid: the activation block and the two result blocks move down the rows with the
    point, the weight matrices and the biases stay. -/
theorem idx_0 : ∀ t : Fin cfg4.N, win4_0.index t (0 : Fin 2) = t.val ∧ win4_0.index t (1 : Fin 2) = 0 :=
  (by decide +kernel : ∀ t : Fin grid4.N, _)
theorem idx_1 : ∀ t : Fin cfg4.N, win4_1.index t (0 : Fin 2) = 0 ∧ win4_1.index t (1 : Fin 2) = 0 :=
  (by decide +kernel : ∀ t : Fin grid4.N, _)
theorem idx_2 : ∀ t : Fin cfg4.N, win4_2.index t (0 : Fin 2) = 0 ∧ win4_2.index t (1 : Fin 2) = 0 :=
  (by decide +kernel : ∀ t : Fin grid4.N, _)
theorem idx_3 : ∀ t : Fin cfg4.N, win4_3.index t (0 : Fin 1) = 0 :=
  (by decide +kernel : ∀ t : Fin grid4.N, _)
theorem idx_4 : ∀ t : Fin cfg4.N, win4_4.index t (0 : Fin 1) = 0 :=
  (by decide +kernel : ∀ t : Fin grid4.N, _)
theorem idx_5 : ∀ t : Fin cfg4.N, win4_5.index t (0 : Fin 2) = t.val ∧ win4_5.index t (1 : Fin 2) = 0 :=
  (by decide +kernel : ∀ t : Fin grid4.N, _)
theorem idx_6 : ∀ t : Fin cfg4.N, win4_6.index t (0 : Fin 2) = t.val ∧ win4_6.index t (1 : Fin 2) = 0 :=
  (by decide +kernel : ∀ t : Fin grid4.N, _)
theorem t_lt : ∀ t : Fin cfg4.N, t.val < 8 := (by decide +kernel : ∀ t : Fin grid4.N, _)

theorem iblk_act (c : Dev nD) (t : Fin cfg4.N) (p : Fin 512) (e : Fin 2560) (r : Fin 4096) (hr : r.val = 512 * t.val + p.val) :
    (iblk4 V c 0 t : S512x2560.Idx → EReal) (ix2 p e) = (V c main_v24 : S4096x2560.Idx → EReal) (ix2 r e) := by
  have e0 := (idx_0 t).1
  have e1 := (idx_0 t).2
  unfold iblk4
  rw [View.read_apply]
  show V c main_v24 _ = V c main_v24 _
  congr 1
  funext a
  apply Fin.ext
  match a with
  | ⟨0, _⟩ => show win4_0.index t 0 * 512 + 1 * p.val = r.val; rw [e0, hr]; omega
  | ⟨1, _⟩ => show win4_0.index t 1 * 2560 + 1 * e.val = e.val; rw [e1]; omega

theorem iblk_wh (c : Dev nD) (t : Fin cfg4.N) (q : Fin 2048) (e : Fin 2560) :
    (iblk4 V c 1 t : S2048x2560.Idx → EReal) (ix2 q e) = (V c main_v25 : S2048x2560.Idx → EReal) (ix2 q e) := by
  have e0 := (idx_1 t).1
  have e1 := (idx_1 t).2
  unfold iblk4
  rw [View.read_apply]
  show V c main_v25 _ = V c main_v25 _
  congr 1
  funext a
  apply Fin.ext
  match a with
  | ⟨0, _⟩ => show win4_1.index t 0 * 2048 + 1 * q.val = q.val; rw [e0]; omega
  | ⟨1, _⟩ => show win4_1.index t 1 * 2560 + 1 * e.val = e.val; rw [e1]; omega

theorem iblk_wo (c : Dev nD) (t : Fin cfg4.N) (q : Fin 512) (e : Fin 2560) :
    (iblk4 V c 2 t : S512x2560.Idx → EReal) (ix2 q e) = (V c main_v26 : S512x2560.Idx → EReal) (ix2 q e) := by
  have e0 := (idx_2 t).1
  have e1 := (idx_2 t).2
  unfold iblk4
  rw [View.read_apply]
  show V c main_v26 _ = V c main_v26 _
  congr 1
  funext a
  apply Fin.ext
  match a with
  | ⟨0, _⟩ => show win4_2.index t 0 * 512 + 1 * q.val = q.val; rw [e0]; omega
  | ⟨1, _⟩ => show win4_2.index t 1 * 2560 + 1 * e.val = e.val; rw [e1]; omega

theorem iblk_bh (c : Dev nD) (t : Fin cfg4.N) (q : Fin 2048) :
    (iblk4 V c 3 t : S2048.Idx → EReal) (ix1 q) = (V c main_arg5 : S2048.Idx → EReal) (ix1 q) := by
  have e0 := idx_3 t
  unfold iblk4
  rw [View.read_apply]
  show V c main_arg5 _ = V c main_arg5 _
  congr 1
  funext a
  apply Fin.ext
  match a with
  | ⟨0, _⟩ => show win4_3.index t 0 * 2048 + 1 * q.val = q.val; rw [e0]; omega

theorem iblk_bo (c : Dev nD) (t : Fin cfg4.N) (q : Fin 512) :
    (iblk4 V c 4 t : S512.Idx → EReal) (ix1 q) = (V c main_arg7 : S512.Idx → EReal) (ix1 q) := by
  have e0 := idx_4 t
  unfold iblk4
  rw [View.read_apply]
  show V c main_arg7 _ = V c main_arg7 _
  congr 1
  funext a
  apply Fin.ext
  match a with
  | ⟨0, _⟩ => show win4_4.index t 0 * 512 + 1 * q.val = q.val; rw [e0]; omega

/-- The new hidden state: the tanh layer of the arrays the call finds. -/
abbrev GH (c : Dev nD) : S4096x2048.Idx → EReal :=
  Cert.DenseNT.tanhL (a := 4096) (k := 2560) (n := 2048) (V c main_v24 : S4096x2560.Idx → EReal)
    (V c main_v25 : S2048x2560.Idx → EReal) (V c main_arg5 : S2048.Idx → EReal)

/-- The output: the affine layer of the arrays the call finds. -/
abbrev GO (c : Dev nD) : S4096x512.Idx → EReal :=
  Cert.DenseNT.biased (a := 4096) (k := 2560) (n := 512) (V c main_v24 : S4096x2560.Idx → EReal)
    (V c main_v26 : S512x2560.Idx → EReal) (V c main_arg7 : S512.Idx → EReal)

/-- What point t writes back through window 5 is block t of the layer over the whole arrays. -/
theorem flushed_eq_h (c : Dev nD) (t : Fin cfg4.N) :
    (dat4 V c).flushed 5 t = ((cfg4.win 5).blk t).view.read (Elt Ideal) (GH V c) := by
  show (cfg4.win 5).cut (grid4.coords t) ((dat4 V c).after 5 t) = _
  rw [after4_5]
  unfold out4_5
  rw [View.canon_unit_zero hz2]
  simp only [View.ld_unit_zero (S := S512x2560) hz2, View.ld_unit_zero (S := S2048x2560) hz2, View.ld_unit_zero (S := S2048) hz1, View.ld_unit_zero (S := S512) hz1]
  rw [pay_eq_h]
  have e0 := (idx_5 t).1
  have e1 := (idx_5 t).2
  have ht := t_lt t
  funext j
  obtain ⟨p, q, rfl⟩ : ∃ (p : Fin 512) (q : Fin 2048), j = ix2 p q := ⟨j 0, j 1, eq_ix2 j⟩
  have hi : ((cfg4.win 5).blk t).view.emb (ix2 p q) = ix2 (⟨512 * t.val + p.val, by omega⟩ : Fin 4096) q := by
    funext a
    apply Fin.ext
    match a with
    | ⟨0, _⟩ => show win4_5.index t 0 * 512 + 1 * p.val = 512 * t.val + p.val; rw [e0]; omega
    | ⟨1, _⟩ => show win4_5.index t 1 * 2048 + 1 * q.val = q.val; rw [e1]; omega
  show Cert.DenseNT.tanhL (a := 512) (k := 2560) (n := 2048) (iblk4 V c 0 t) (iblk4 V c 1 t) (iblk4 V c 3 t) (ix2 p q)
    = GH V c (((cfg4.win 5).blk t).view.emb (ix2 p q))
  rw [hi]
  exact Cert.DenseNT.tanhL_congr _ _ _ _ _ _ p q _ q (fun e => iblk_act V c t p e _ rfl) (fun e => iblk_wh V c t q e) (iblk_bh V c t q)

/-- An index of the result is in point t's block iff each coordinate is in the block's range on its axis. -/
theorem mem_blk_h (t : Fin cfg4.N) (i : S4096x2048.Idx) :
    i ∈ ((cfg4.win 5).blk t).view.set ↔ ∀ a : Fin 2, win4_5.index t a * S512x2048.size a ≤ (i a).val ∧ (i a).val < win4_5.index t a * S512x2048.size a + S512x2048.size a := by
  show i ∈ ((View.whole main_v27_0).slice (win4_5.rect t)).set ↔ _
  rw [View.set_slice_whole, Rect.mem_set_unit]
  exact Iff.rfl

/-- The eight row blocks cover the result. -/
theorem cover_h (i : S4096x2048.Idx) : ∃ t : Fin cfg4.N, (cfg4.win 5).flush t = true ∧ i ∈ ((cfg4.win 5).blk t).view.set := by
  have hi0 : (i 0).val < 4096 := (i 0).isLt
  have hi1 : (i 1).val < 2048 := (i 1).isLt
  have hN : cfg4.N = 8 := N_4
  refine ⟨⟨(i 0).val / 512, by rw [hN]; omega⟩, flush4_5 _, ?_⟩
  rw [mem_blk_h]
  have e0 := (idx_5 (⟨(i 0).val / 512, by rw [hN]; omega⟩ : Fin cfg4.N)).1
  have e1 := (idx_5 (⟨(i 0).val / 512, by rw [hN]; omega⟩ : Fin cfg4.N)).2
  intro a
  match a with
  | ⟨0, _⟩ =>
    show win4_5.index _ 0 * 512 ≤ (i 0).val ∧ (i 0).val < win4_5.index _ 0 * 512 + 512
    rw [e0]; show (i 0).val / 512 * 512 ≤ (i 0).val ∧ (i 0).val < (i 0).val / 512 * 512 + 512; omega
  | ⟨1, _⟩ =>
    show win4_5.index _ 1 * 2048 ≤ (i 1).val ∧ (i 1).val < win4_5.index _ 1 * 2048 + 2048
    rw [e1]; omega

/-- The result array after the call. -/
theorem final_h (c : Dev nD) : (dat4 V c).arrAt 5 cfg4.N = GH V c :=
  (dat4 V c).arrAt_eq_of_cover 5 (GH V c) (fun t _ => flushed_eq_h V c t) (cover_h)

/-- What point t writes back through window 6 is block t of the layer over the whole arrays. -/
theorem flushed_eq_o (c : Dev nD) (t : Fin cfg4.N) :
    (dat4 V c).flushed 6 t = ((cfg4.win 6).blk t).view.read (Elt Ideal) (GO V c) := by
  show (cfg4.win 6).cut (grid4.coords t) ((dat4 V c).after 6 t) = _
  rw [after4_6]
  unfold out4_6
  rw [View.canon_unit_zero hz2]
  simp only [View.ld_unit_zero (S := S512x2560) hz2, View.ld_unit_zero (S := S2048x2560) hz2, View.ld_unit_zero (S := S2048) hz1, View.ld_unit_zero (S := S512) hz1]
  rw [pay_eq_o]
  have e0 := (idx_6 t).1
  have e1 := (idx_6 t).2
  have ht := t_lt t
  funext j
  obtain ⟨p, q, rfl⟩ : ∃ (p : Fin 512) (q : Fin 512), j = ix2 p q := ⟨j 0, j 1, eq_ix2 j⟩
  have hi : ((cfg4.win 6).blk t).view.emb (ix2 p q) = ix2 (⟨512 * t.val + p.val, by omega⟩ : Fin 4096) q := by
    funext a
    apply Fin.ext
    match a with
    | ⟨0, _⟩ => show win4_6.index t 0 * 512 + 1 * p.val = 512 * t.val + p.val; rw [e0]; omega
    | ⟨1, _⟩ => show win4_6.index t 1 * 512 + 1 * q.val = q.val; rw [e1]; omega
  show Cert.DenseNT.biased (a := 512) (k := 2560) (n := 512) (iblk4 V c 0 t) (iblk4 V c 2 t) (iblk4 V c 4 t) (ix2 p q)
    = GO V c (((cfg4.win 6).blk t).view.emb (ix2 p q))
  rw [hi]
  exact Cert.DenseNT.biased_congr _ _ _ _ _ _ p q _ q (fun e => iblk_act V c t p e _ rfl) (fun e => iblk_wo V c t q e) (iblk_bo V c t q)

/-- An index of the result is in point t's block iff each coordinate is in the block's range on its axis. -/
theorem mem_blk_o (t : Fin cfg4.N) (i : S4096x512.Idx) :
    i ∈ ((cfg4.win 6).blk t).view.set ↔ ∀ a : Fin 2, win4_6.index t a * S512x512.size a ≤ (i a).val ∧ (i a).val < win4_6.index t a * S512x512.size a + S512x512.size a := by
  show i ∈ ((View.whole main_v27_1).slice (win4_6.rect t)).set ↔ _
  rw [View.set_slice_whole, Rect.mem_set_unit]
  exact Iff.rfl

/-- The eight row blocks cover the result. -/
theorem cover_o (i : S4096x512.Idx) : ∃ t : Fin cfg4.N, (cfg4.win 6).flush t = true ∧ i ∈ ((cfg4.win 6).blk t).view.set := by
  have hi0 : (i 0).val < 4096 := (i 0).isLt
  have hi1 : (i 1).val < 512 := (i 1).isLt
  have hN : cfg4.N = 8 := N_4
  refine ⟨⟨(i 0).val / 512, by rw [hN]; omega⟩, flush4_6 _, ?_⟩
  rw [mem_blk_o]
  have e0 := (idx_6 (⟨(i 0).val / 512, by rw [hN]; omega⟩ : Fin cfg4.N)).1
  have e1 := (idx_6 (⟨(i 0).val / 512, by rw [hN]; omega⟩ : Fin cfg4.N)).2
  intro a
  match a with
  | ⟨0, _⟩ =>
    show win4_6.index _ 0 * 512 ≤ (i 0).val ∧ (i 0).val < win4_6.index _ 0 * 512 + 512
    rw [e0]; show (i 0).val / 512 * 512 ≤ (i 0).val ∧ (i 0).val < (i 0).val / 512 * 512 + 512; omega
  | ⟨1, _⟩ =>
    show win4_6.index _ 1 * 512 ≤ (i 1).val ∧ (i 1).val < win4_6.index _ 1 * 512 + 512
    rw [e1]; omega

/-- The result array after the call. -/
theorem final_o (c : Dev nD) : (dat4 V c).arrAt 6 cfg4.N = GO V c :=
  (dat4 V c).arrAt_eq_of_cover 6 (GO V c) (fun t _ => flushed_eq_o V c t) (cover_o)

end Cert.KernelIdeal.Layer4

end
-- ==== Proof.LibConcatCols.lean ====
/-
  Two matrices joined side by side, read at an entry. For a [K, N₁] matrix and a [K, N₂] matrix concatenated along
  the column axis into a [K, N] matrix, the entry in column q is the left matrix's entry in column q when q < N₁, and the
  right matrix's entry in column q - N₁ otherwise. Consequently a sum over k of x(r, k) * joined(k, q) is the same sum
  against the one matrix the column q falls in: a product with the joined matrix, cut back into its two column ranges,
  is the two products.
-/
import Idealize.ShloMosaic.PureOps.Ideal
import Idealize.ShloMosaic.Lib.Pipeline.Value
import Idealize.ShloMosaic.Lib.ValueIdx

noncomputable section

open scoped BigOperators

namespace Cert.LibConcatCols

open Idealize.ShloMosaic Idealize.ShloMosaic.ValueIdx

variable {α : Type} {K N₁ N₂ N : Nat}

/-- A column of the joined matrix that lies in the left matrix's range is that matrix's column. -/
theorem cols_left (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₁) (hq : q'.val = q.val) :
    concatenate ⟨2, ![K, N]⟩ 1 [⟨⟨2, ![K, N₁]⟩, a⟩, ⟨⟨2, ![K, N₂]⟩, b⟩] h (ix2 k q) = a (ix2 k q') := by
  refine concatenate_pair_apply_left 1 a b h (ix2 k q) rfl (ix2 k q') fun d => ?_
  match d with
  | ⟨0, _⟩ => rfl
  | ⟨1, _⟩ => exact hq

/-- A column past the left matrix's range is the right matrix's column, the left width less. -/
theorem cols_right (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₂) (hq : q'.val + N₁ = q.val) :
    concatenate ⟨2, ![K, N]⟩ 1 [⟨⟨2, ![K, N₁]⟩, a⟩, ⟨⟨2, ![K, N₂]⟩, b⟩] h (ix2 k q) = b (ix2 k q') := by
  refine concatenate_pair_apply_right 1 a b h (ix2 k q) rfl rfl (ix2 k q') (fun d hd => ?_) hq
  match d with
  | ⟨0, _⟩ => rfl
  | ⟨1, _⟩ => exact absurd rfl hd

/-- A row of x against a left-range column of the joined matrix is that row against the left matrix's column. -/
theorem sum_cols_left {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₁) (hq : q'.val = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * a (ix2 k q') :=
  Finset.sum_congr rfl fun k _ => by rw [cols_left a b h k q q' hq]

/-- A row of x against a right-range column of the joined matrix is that row against the right matrix's column. -/
theorem sum_cols_right {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₂) (hq : q'.val + N₁ = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * b (ix2 k q') :=
  Finset.sum_congr rfl fun k _ => by rw [cols_right a b h k q q' hq]

end Cert.LibConcatCols

end
-- ==== Proof.Net.lean ====
/-
  The network both programs compute, on the extended reals.

  Inputs: x : [4096, 512], h : [4096, 2048], a stack of four weight matrices Wl : [4, 2560, 2560] with their bias
  vectors bl : [4, 2560], and two heads (Wh : [2048, 2560], bh : [2048]) and (Wo : [512, 2560], bo : [512]).  Every
  weight matrix has one row per output feature.  With c0 the two inputs joined side by side,

      c1 = max(c0 W0^T + b0, 0),  c2 = max(c1 W1^T + b1, 0),  c3 = max(c2 W2^T + b2, 0),  c4 = max(c3 W3^T + b3, 0),
      hidden = tanh(c4 Wh^T + bh),   output = c4 Wo^T + bo.

  The first layer is written here in the form that never joins x and h: x against the first 512 columns of W0 plus h
  against the remaining 2048 (`hid0`); `hid0_join` says this is the layer over the joined array, because a sum over
  2560 = 512 + 2048 consecutive indices splits at the seam and addition on the extended reals is associative.
  Layer l of the stack and its bias are read off the stack by index (`sliceW`, `sliceB`); the four small lemmas after
  them say that a slice followed by a reshape, as both programs spell it, reads the same entries.
-/
import Idealize.ShloMosaic.Lib.Pipeline.Value
import Idealize.ShloMosaic.Lib.ValueIdx
import Idealize.ShloMosaic.Lib.ValueLayout
import proofs.«180260_j81827716924021_2_alg».proof.Proof.LibDenseNT
import proofs.«180260_j81827716924021_2_alg».proof.Proof.LibConcatCols

noncomputable section

namespace Cert.Net

open Idealize.ShloMosaic Idealize.ShloMosaic.ValueIdx

/-- Matrix l of the stack. -/
def sliceW (l : Fin 4) (Wl : (⟨3, ![4, 2560, 2560]⟩ : Shape).Idx → EReal) : (⟨2, ![2560, 2560]⟩ : Shape).Idx → EReal :=
  fun i => Wl (ix3 l (i 0) (i 1))

/-- Bias vector l of the stack. -/
def sliceB (l : Fin 4) (bl : (⟨2, ![4, 2560]⟩ : Shape).Idx → EReal) : (⟨1, ![2560]⟩ : Shape).Idx → EReal :=
  fun i => bl (ix2 l (i 0))

/-- The first 512 columns of a [2560, 2560] matrix. -/
def colsL (W : (⟨2, ![2560, 2560]⟩ : Shape).Idx → EReal) : (⟨2, ![2560, 512]⟩ : Shape).Idx → EReal :=
  fun i => W (ix2 (i 0) ⟨(i 1).val, Nat.lt_of_lt_of_le (idx2_lt1 i) (by norm_num)⟩)

/-- The last 2048 columns of a [2560, 2560] matrix. -/
def colsR (W : (⟨2, ![2560, 2560]⟩ : Shape).Idx → EReal) : (⟨2, ![2560, 2048]⟩ : Shape).Idx → EReal :=
  fun i => W (ix2 (i 0) ⟨512 + (i 1).val, by have := idx2_lt1 i; omega⟩)

/-- Cutting plane o out of the stack and dropping the unit axis reads matrix o. -/
theorem sliceW_eq (o : ℕ) (l : Fin 4) (hl : l.val = o) (Wl : (⟨3, ![4, 2560, 2560]⟩ : Shape).Idx → EReal)
    (hs : (⟨3, ![4, 2560, 2560]⟩ : Shape).Slices ![o, 0, 0] ⟨3, ![1, 2560, 2560]⟩)
    (hc : (⟨3, ![1, 2560, 2560]⟩ : Shape).ShapeCasts ⟨2, ![2560, 2560]⟩) :
    shapeCast ⟨2, ![2560, 2560]⟩ (extractStridedSlice ⟨3, ![1, 2560, 2560]⟩ ![o, 0, 0] Wl hs) hc = sliceW l Wl := by
  funext j
  obtain ⟨r, q, rfl⟩ : ∃ (r : Fin 2560) (q : Fin 2560), j = ix2 r q := ⟨j 0, j 1, eq_ix2 j⟩
  rw [shapeCast_1ab_ab_apply]
  exact extractStridedSlice_apply _ _ _ _ (ix3 l r q) fun a => match a with
    | ⟨0, _⟩ => by show l.val = o + 0; omega
    | ⟨1, _⟩ => by show r.val = 0 + r.val; omega
    | ⟨2, _⟩ => by show q.val = 0 + q.val; omega

/-- Cutting row o out of the bias stack and dropping the unit axis reads bias vector o. -/
theorem sliceB_eq (o : ℕ) (l : Fin 4) (hl : l.val = o) (bl : (⟨2, ![4, 2560]⟩ : Shape).Idx → EReal)
    (hs : (⟨2, ![4, 2560]⟩ : Shape).Slices ![o, 0] ⟨2, ![1, 2560]⟩)
    (hc : (⟨2, ![1, 2560]⟩ : Shape).ShapeCasts ⟨1, ![2560]⟩) :
    shapeCast ⟨1, ![2560]⟩ (extractStridedSlice ⟨2, ![1, 2560]⟩ ![o, 0] bl hs) hc = sliceB l bl := by
  funext j
  obtain ⟨q, rfl⟩ : ∃ q : Fin 2560, j = ix1 q := ⟨j 0, eq_ix1 j⟩
  rw [shapeCast_1a_a_apply]
  exact slice2_axis0_apply o bl hs (0 : Fin 1) q l (by show l.val = o + 0; omega)

theorem colsL_eq (W : (⟨2, ![2560, 2560]⟩ : Shape).Idx → EReal)
    (hs : (⟨2, ![2560, 2560]⟩ : Shape).Slices ![0, 0] ⟨2, ![2560, 512]⟩) :
    extractStridedSlice ⟨2, ![2560, 512]⟩ ![0, 0] W hs = colsL W := by
  funext j
  obtain ⟨r, q, rfl⟩ : ∃ (r : Fin 2560) (q : Fin 512), j = ix2 r q := ⟨j 0, j 1, eq_ix2 j⟩
  exact slice2_axis1_apply 0 W hs r q ⟨q.val, by omega⟩ (by show q.val = 0 + q.val; omega)

theorem colsR_eq (W : (⟨2, ![2560, 2560]⟩ : Shape).Idx → EReal)
    (hs : (⟨2, ![2560, 2560]⟩ : Shape).Slices ![0, 512] ⟨2, ![2560, 2048]⟩) :
    extractStridedSlice ⟨2, ![2560, 2048]⟩ ![0, 512] W hs = colsR W := by
  funext j
  obtain ⟨r, q, rfl⟩ : ∃ (r : Fin 2560) (q : Fin 2048), j = ix2 r q := ⟨j 0, j 1, eq_ix2 j⟩
  exact slice2_axis1_apply 512 W hs r q ⟨512 + q.val, by omega⟩ rfl

section Network

variable (x : (⟨2, ![4096, 512]⟩ : Shape).Idx → EReal) (h : (⟨2, ![4096, 2048]⟩ : Shape).Idx → EReal)
  (Wl : (⟨3, ![4, 2560, 2560]⟩ : Shape).Idx → EReal) (bl : (⟨2, ![4, 2560]⟩ : Shape).Idx → EReal)

/-- The first layer, x and h each against its own columns of W0. -/
def hid0 : (⟨2, ![4096, 2560]⟩ : Shape).Idx → EReal :=
  Cert.DenseNT.relu2 x h (colsL (sliceW 0 Wl)) (colsR (sliceW 0 Wl)) (sliceB 0 bl)

def hid1 : (⟨2, ![4096, 2560]⟩ : Shape).Idx → EReal :=
  Cert.DenseNT.relu (hid0 x h Wl bl) (sliceW 1 Wl) (sliceB 1 bl)

def hid2 : (⟨2, ![4096, 2560]⟩ : Shape).Idx → EReal :=
  Cert.DenseNT.relu (hid1 x h Wl bl) (sliceW 2 Wl) (sliceB 2 bl)

def hid3 : (⟨2, ![4096, 2560]⟩ : Shape).Idx → EReal :=
  Cert.DenseNT.relu (hid2 x h Wl bl) (sliceW 3 Wl) (sliceB 3 bl)

/-- The new hidden state. -/
def outH (Wh : (⟨2, ![2048, 2560]⟩ : Shape).Idx → EReal) (bh : (⟨1, ![2048]⟩ : Shape).Idx → EReal) :
    (⟨2, ![4096, 2048]⟩ : Shape).Idx → EReal :=
  Cert.DenseNT.tanhL (hid3 x h Wl bl) Wh bh

/-- The output. -/
def outO (Wo : (⟨2, ![512, 2560]⟩ : Shape).Idx → EReal) (bo : (⟨1, ![512]⟩ : Shape).Idx → EReal) :
    (⟨2, ![4096, 512]⟩ : Shape).Idx → EReal :=
  Cert.DenseNT.biased (hid3 x h Wl bl) Wo bo

/-- The first layer over x and h joined side by side is `hid0`. -/
theorem hid0_join
    (hcat : Shape.Concatenates [(⟨2, ![4096, 512]⟩ : Shape), ⟨2, ![4096, 2048]⟩] ⟨2, ![4096, 2560]⟩ 1) :
    Cert.DenseNT.relu
        (concatenate ⟨2, ![4096, 2560]⟩ 1 [⟨⟨2, ![4096, 512]⟩, x⟩, ⟨⟨2, ![4096, 2048]⟩, h⟩] hcat)
        (sliceW 0 Wl) (sliceB 0 bl)
      = hid0 x h Wl bl :=
  Cert.DenseNT.relu_join (k1 := 512) (k2 := 2048) (kk := 2560) rfl _ _ x h _ _ _
    (fun r c => Cert.LibConcatCols.cols_left x h hcat r ⟨c.val, by omega⟩ c rfl)
    (fun r c => Cert.LibConcatCols.cols_right x h hcat r ⟨512 + c.val, by omega⟩ c (by show c.val + 512 = 512 + c.val; omega))
    (fun q c => rfl) (fun q c => rfl)

end Network

end Cert.Net

end
-- ==== Proof.KernelValue.lean ====
/-
  The kernel program's buffers at each boundary of its run, as functions of the argument arrays.

  The run alternates stretches of host operations with pallas calls.  A host stretch writes each of its results as
  its operation's function of what the stretch found; a pallas call leaves each of its result arrays at the layer of
  the arrays it found (one lemma per call); every other buffer passes through unchanged.  Walking the ten boundaries
  in order: the conversions to bfloat16 are the identity on extended reals, the slices and reshapes read matrix l and
  bias l of the stacks, and the five calls compute the four rectified layers and the two heads.  The last boundary's
  two result buffers hold the network's output and new hidden state.
-/
import proofs.«180260_j81827716924021_2_alg».proof.Proof.Gen.KernelIdeal.Frame
import proofs.«180260_j81827716924021_2_alg».proof.Proof.Layer0
import proofs.«180260_j81827716924021_2_alg».proof.Proof.Layer1
import proofs.«180260_j81827716924021_2_alg».proof.Proof.Layer2
import proofs.«180260_j81827716924021_2_alg».proof.Proof.Layer3
import proofs.«180260_j81827716924021_2_alg».proof.Proof.Layer4
import proofs.«180260_j81827716924021_2_alg».proof.Proof.Net
import Idealize.ShloMosaic.Lib.StableHlo.Run

set_option maxRecDepth 16384

noncomputable section

open Idealize.ShloMosaic Idealize.ShloMosaic.TcCoe Idealize.SL.Sem Idealize.ShloMosaic.StableHlo Idealize.ShloMosaic.ValueIdx

namespace Cert.KernelIdeal.Chain

open Cert.KernelIdeal Cert.KernelIdeal.Gen

variable (m : (ℓ : Loc nD τ sig) → Buf (Elt Ideal) ℓ) (ρ : Dev nD → PrngReg) (c : Dev nD)

/-! ## The argument arrays -/

abbrev aX : S4096x512.Idx → EReal := m ((c : Thread nD τ).loc main_arg0)
abbrev aH : S4096x2048.Idx → EReal := m ((c : Thread nD τ).loc main_arg1)
abbrev aWl : S4x2560x2560.Idx → EReal := m ((c : Thread nD τ).loc main_arg2)
abbrev aBl : S4x2560.Idx → EReal := m ((c : Thread nD τ).loc main_arg3)
abbrev aWh : S2048x2560.Idx → EReal := m ((c : Thread nD τ).loc main_arg4)
abbrev aBh : S2048.Idx → EReal := m ((c : Thread nD τ).loc main_arg5)
abbrev aWo : S512x2560.Idx → EReal := m ((c : Thread nD τ).loc main_arg6)
abbrev aBo : S512.Idx → EReal := m ((c : Thread nD τ).loc main_arg7)

/-! ## Each pallas call's result from what its operands are known to hold -/

variable (V : (c : Dev nD) → (b : Ref sig .tc) → Buf (Elt Ideal) ((c : Thread nD τ).loc b))

theorem call0_of (x : S4096x512.Idx → EReal) (h : S4096x2048.Idx → EReal) (Wx : S2560x512.Idx → EReal)
    (Wh : S2560x2048.Idx → EReal) (b : S2560.Idx → EReal)
    (hx : (V c main_v0 : S4096x512.Idx → EReal) = x) (hh : (V c main_v1 : S4096x2048.Idx → EReal) = h)
    (hWx : (V c main_v5 : S2560x512.Idx → EReal) = Wx) (hWh : (V c main_v6 : S2560x2048.Idx → EReal) = Wh)
    (hb : (V c main_v8 : S2560.Idx → EReal) = b) :
    (dat0 V c).arrAt 5 cfg0.N = Cert.DenseNT.relu2 (a := 4096) (n := 2560) (k1 := 512) (k2 := 2048) x h Wx Wh b := by
  subst hx hh hWx hWh hb
  exact Layer0.final V c

theorem call1_of (X : S4096x2560.Idx → EReal) (W : S2560x2560.Idx → EReal) (b : S2560.Idx → EReal)
    (hX : (V c main_v9 : S4096x2560.Idx → EReal) = X) (hW : (V c main_v11 : S2560x2560.Idx → EReal) = W)
    (hb : (V c main_v13 : S2560.Idx → EReal) = b) :
    (dat1 V c).arrAt 3 cfg1.N = Cert.DenseNT.relu (a := 4096) (k := 2560) (n := 2560) X W b := by
  subst hX hW hb
  exact Layer1.final V c

theorem call2_of (X : S4096x2560.Idx → EReal) (W : S2560x2560.Idx → EReal) (b : S2560.Idx → EReal)
    (hX : (V c main_v14 : S4096x2560.Idx → EReal) = X) (hW : (V c main_v16 : S2560x2560.Idx → EReal) = W)
    (hb : (V c main_v18 : S2560.Idx → EReal) = b) :
    (dat2 V c).arrAt 3 cfg2.N = Cert.DenseNT.relu (a := 4096) (k := 2560) (n := 2560) X W b := by
  subst hX hW hb
  exact Layer2.final V c

theorem call3_of (X : S4096x2560.Idx → EReal) (W : S2560x2560.Idx → EReal) (b : S2560.Idx → EReal)
    (hX : (V c main_v19 : S4096x2560.Idx → EReal) = X) (hW : (V c main_v21 : S2560x2560.Idx → EReal) = W)
    (hb : (V c main_v23 : S2560.Idx → EReal) = b) :
    (dat3 V c).arrAt 3 cfg3.N = Cert.DenseNT.relu (a := 4096) (k := 2560) (n := 2560) X W b := by
  subst hX hW hb
  exact Layer3.final V c

theorem call4h_of (X : S4096x2560.Idx → EReal) (W : S2048x2560.Idx → EReal) (b : S2048.Idx → EReal)
    (hX : (V c main_v24 : S4096x2560.Idx → EReal) = X) (hW : (V c main_v25 : S2048x2560.Idx → EReal) = W)
    (hb : (V c main_arg5 : S2048.Idx → EReal) = b) :
    (dat4 V c).arrAt 5 cfg4.N = Cert.DenseNT.tanhL (a := 4096) (k := 2560) (n := 2048) X W b := by
  subst hX hW hb
  exact Layer4.final_h V c

theorem call4o_of (X : S4096x2560.Idx → EReal) (W : S512x2560.Idx → EReal) (b : S512.Idx → EReal)
    (hX : (V c main_v24 : S4096x2560.Idx → EReal) = X) (hW : (V c main_v26 : S512x2560.Idx → EReal) = W)
    (hb : (V c main_arg7 : S512.Idx → EReal) = b) :
    (dat4 V c).arrAt 6 cfg4.N = Cert.DenseNT.biased (a := 4096) (k := 2560) (n := 512) X W b := by
  subst hX hW hb
  exact Layer4.final_o V c

/-! ## The boundaries, in order -/
theorem w0_arg0 : (W0 m ρ c (Proc.devRef .tc main_arg0) : S4096x512.Idx → EReal) = aX m c := rfl
theorem w0_arg1 : (W0 m ρ c (Proc.devRef .tc main_arg1) : S4096x2048.Idx → EReal) = aH m c := rfl
theorem w0_arg2 : (W0 m ρ c (Proc.devRef .tc main_arg2) : S4x2560x2560.Idx → EReal) = aWl m c := rfl
theorem w0_arg3 : (W0 m ρ c (Proc.devRef .tc main_arg3) : S4x2560.Idx → EReal) = aBl m c := rfl
theorem w0_arg4 : (W0 m ρ c (Proc.devRef .tc main_arg4) : S2048x2560.Idx → EReal) = aWh m c := rfl
theorem w0_arg5 : (W0 m ρ c (Proc.devRef .tc main_arg5) : S2048.Idx → EReal) = aBh m c := rfl
theorem w0_arg6 : (W0 m ρ c (Proc.devRef .tc main_arg6) : S512x2560.Idx → EReal) = aWo m c := rfl
theorem w0_arg7 : (W0 m ρ c (Proc.devRef .tc main_arg7) : S512.Idx → EReal) = aBo m c := rfl
theorem w1_v0 : (W1 m ρ c (Proc.devRef .tc main_v0) : S4096x512.Idx → EReal) = aX m c := by
  show StableHlo.after hostOps0 (W0 m ρ c) (Proc.devRef .tc main_v0) = _
  dsimp only [hostOps0]
  after_results
  rfl
theorem w1_v1 : (W1 m ρ c (Proc.devRef .tc main_v1) : S4096x2048.Idx → EReal) = aH m c := by
  show StableHlo.after hostOps0 (W0 m ρ c) (Proc.devRef .tc main_v1) = _
  dsimp only [hostOps0]
  after_results
  rfl
theorem w1_v2 : (W1 m ρ c (Proc.devRef .tc main_v2) : S4x2560x2560.Idx → EReal) = aWl m c := by
  show StableHlo.after hostOps0 (W0 m ρ c) (Proc.devRef .tc main_v2) = _
  dsimp only [hostOps0]
  after_results
  rfl
theorem w1_v5 : (W1 m ρ c (Proc.devRef .tc main_v5) : S2560x512.Idx → EReal) = Cert.Net.colsL (Cert.Net.sliceW 0 (aWl m c)) := by
  show StableHlo.after hostOps0 (W0 m ρ c) (Proc.devRef .tc main_v5) = _
  dsimp only [hostOps0]
  after_results
  exact (Cert.Net.colsL_eq _ _).trans (congrArg Cert.Net.colsL (Cert.Net.sliceW_eq 0 0 rfl (aWl m c) _ _))
theorem w1_v6 : (W1 m ρ c (Proc.devRef .tc main_v6) : S2560x2048.Idx → EReal) = Cert.Net.colsR (Cert.Net.sliceW 0 (aWl m c)) := by
  show StableHlo.after hostOps0 (W0 m ρ c) (Proc.devRef .tc main_v6) = _
  dsimp only [hostOps0]
  after_results
  exact (Cert.Net.colsR_eq _ _).trans (congrArg Cert.Net.colsR (Cert.Net.sliceW_eq 0 0 rfl (aWl m c) _ _))
theorem w1_v8 : (W1 m ρ c (Proc.devRef .tc main_v8) : S2560.Idx → EReal) = Cert.Net.sliceB 0 (aBl m c) := by
  show StableHlo.after hostOps0 (W0 m ρ c) (Proc.devRef .tc main_v8) = _
  dsimp only [hostOps0]
  after_results
  exact Cert.Net.sliceB_eq 0 0 rfl (aBl m c) _ _
theorem w1_arg3 : (W1 m ρ c (Proc.devRef .tc main_arg3) : S4x2560.Idx → EReal) = aBl m c := by
  show StableHlo.after hostOps0 (W0 m ρ c) (Proc.devRef .tc main_arg3) = _
  dsimp only [hostOps0]
  after_results
  all_goals exact w0_arg3 m ρ c
theorem w1_arg4 : (W1 m ρ c (Proc.devRef .tc main_arg4) : S2048x2560.Idx → EReal) = aWh m c := by
  show StableHlo.after hostOps0 (W0 m ρ c) (Proc.devRef .tc main_arg4) = _
  dsimp only [hostOps0]
  after_results
  all_goals exact w0_arg4 m ρ c
theorem w1_arg5 : (W1 m ρ c (Proc.devRef .tc main_arg5) : S2048.Idx → EReal) = aBh m c := by
  show StableHlo.after hostOps0 (W0 m ρ c) (Proc.devRef .tc main_arg5) = _
  dsimp only [hostOps0]
  after_results
  all_goals exact w0_arg5 m ρ c
theorem w1_arg6 : (W1 m ρ c (Proc.devRef .tc main_arg6) : S512x2560.Idx → EReal) = aWo m c := by
  show StableHlo.after hostOps0 (W0 m ρ c) (Proc.devRef .tc main_arg6) = _
  dsimp only [hostOps0]
  after_results
  all_goals exact w0_arg6 m ρ c
theorem w1_arg7 : (W1 m ρ c (Proc.devRef .tc main_arg7) : S512.Idx → EReal) = aBo m c := by
  show StableHlo.after hostOps0 (W0 m ρ c) (Proc.devRef .tc main_arg7) = _
  dsimp only [hostOps0]
  after_results
  all_goals exact w0_arg7 m ρ c
theorem w2_v9 : (W2 m ρ c (Proc.devRef .tc main_v9) : S4096x2560.Idx → EReal) = Cert.Net.hid0 (aX m c) (aH m c) (aWl m c) (aBl m c) :=
  (W2_arr m ρ c 5).trans (call0_of c (V1 m ρ) _ _ _ _ _ (w1_v0 m ρ c) (w1_v1 m ρ c) (w1_v5 m ρ c) (w1_v6 m ρ c) (w1_v8 m ρ c))
theorem w2_v2 : (W2 m ρ c (Proc.devRef .tc main_v2) : S4x2560x2560.Idx → EReal) = aWl m c :=
  (W2_of_ne m ρ c main_v2 (by decide)).trans (w1_v2 m ρ c)
theorem w2_arg3 : (W2 m ρ c (Proc.devRef .tc main_arg3) : S4x2560.Idx → EReal) = aBl m c :=
  (W2_of_ne m ρ c main_arg3 (by decide)).trans (w1_arg3 m ρ c)
theorem w2_arg4 : (W2 m ρ c (Proc.devRef .tc main_arg4) : S2048x2560.Idx → EReal) = aWh m c :=
  (W2_of_ne m ρ c main_arg4 (by decide)).trans (w1_arg4 m ρ c)
theorem w2_arg5 : (W2 m ρ c (Proc.devRef .tc main_arg5) : S2048.Idx → EReal) = aBh m c :=
  (W2_of_ne m ρ c main_arg5 (by decide)).trans (w1_arg5 m ρ c)
theorem w2_arg6 : (W2 m ρ c (Proc.devRef .tc main_arg6) : S512x2560.Idx → EReal) = aWo m c :=
  (W2_of_ne m ρ c main_arg6 (by decide)).trans (w1_arg6 m ρ c)
theorem w2_arg7 : (W2 m ρ c (Proc.devRef .tc main_arg7) : S512.Idx → EReal) = aBo m c :=
  (W2_of_ne m ρ c main_arg7 (by decide)).trans (w1_arg7 m ρ c)
theorem w3_v9 : (W3 m ρ c (Proc.devRef .tc main_v9) : S4096x2560.Idx → EReal) = Cert.Net.hid0 (aX m c) (aH m c) (aWl m c) (aBl m c) := by
  show StableHlo.after hostOps1 (W2 m ρ c) (Proc.devRef .tc main_v9) = _
  dsimp only [hostOps1]
  after_results
  exact w2_v9 m ρ c
theorem w3_v11 : (W3 m ρ c (Proc.devRef .tc main_v11) : S2560x2560.Idx → EReal) = Cert.Net.sliceW 1 (aWl m c) := by
  show StableHlo.after hostOps1 (W2 m ρ c) (Proc.devRef .tc main_v11) = _
  dsimp only [hostOps1]
  after_results
  rw [w2_v2 m ρ c]
  exact Cert.Net.sliceW_eq 1 1 rfl (aWl m c) _ _
theorem w3_v13 : (W3 m ρ c (Proc.devRef .tc main_v13) : S2560.Idx → EReal) = Cert.Net.sliceB 1 (aBl m c) := by
  show StableHlo.after hostOps1 (W2 m ρ c) (Proc.devRef .tc main_v13) = _
  dsimp only [hostOps1]
  after_results
  rw [w2_arg3 m ρ c]
  exact Cert.Net.sliceB_eq 1 1 rfl (aBl m c) _ _
theorem w3_v2 : (W3 m ρ c (Proc.devRef .tc main_v2) : S4x2560x2560.Idx → EReal) = aWl m c := by
  show StableHlo.after hostOps1 (W2 m ρ c) (Proc.devRef .tc main_v2) = _
  dsimp only [hostOps1]
  after_results
  exact w2_v2 m ρ c
theorem w3_arg3 : (W3 m ρ c (Proc.devRef .tc main_arg3) : S4x2560.Idx → EReal) = aBl m c := by
  show StableHlo.after hostOps1 (W2 m ρ c) (Proc.devRef .tc main_arg3) = _
  dsimp only [hostOps1]
  after_results
  exact w2_arg3 m ρ c
theorem w3_arg4 : (W3 m ρ c (Proc.devRef .tc main_arg4) : S2048x2560.Idx → EReal) = aWh m c := by
  show StableHlo.after hostOps1 (W2 m ρ c) (Proc.devRef .tc main_arg4) = _
  dsimp only [hostOps1]
  after_results
  exact w2_arg4 m ρ c
theorem w3_arg5 : (W3 m ρ c (Proc.devRef .tc main_arg5) : S2048.Idx → EReal) = aBh m c := by
  show StableHlo.after hostOps1 (W2 m ρ c) (Proc.devRef .tc main_arg5) = _
  dsimp only [hostOps1]
  after_results
  exact w2_arg5 m ρ c
theorem w3_arg6 : (W3 m ρ c (Proc.devRef .tc main_arg6) : S512x2560.Idx → EReal) = aWo m c := by
  show StableHlo.after hostOps1 (W2 m ρ c) (Proc.devRef .tc main_arg6) = _
  dsimp only [hostOps1]
  after_results
  exact w2_arg6 m ρ c
theorem w3_arg7 : (W3 m ρ c (Proc.devRef .tc main_arg7) : S512.Idx → EReal) = aBo m c := by
  show StableHlo.after hostOps1 (W2 m ρ c) (Proc.devRef .tc main_arg7) = _
  dsimp only [hostOps1]
  after_results
  exact w2_arg7 m ρ c
theorem w4_v14 : (W4 m ρ c (Proc.devRef .tc main_v14) : S4096x2560.Idx → EReal) = Cert.Net.hid1 (aX m c) (aH m c) (aWl m c) (aBl m c) :=
  (W4_arr m ρ c 3).trans (call1_of c (V3 m ρ) _ _ _ (w3_v9 m ρ c) (w3_v11 m ρ c) (w3_v13 m ρ c))
theorem w4_v2 : (W4 m ρ c (Proc.devRef .tc main_v2) : S4x2560x2560.Idx → EReal) = aWl m c :=
  (W4_of_ne m ρ c main_v2 (by decide)).trans (w3_v2 m ρ c)
theorem w4_arg3 : (W4 m ρ c (Proc.devRef .tc main_arg3) : S4x2560.Idx → EReal) = aBl m c :=
  (W4_of_ne m ρ c main_arg3 (by decide)).trans (w3_arg3 m ρ c)
theorem w4_arg4 : (W4 m ρ c (Proc.devRef .tc main_arg4) : S2048x2560.Idx → EReal) = aWh m c :=
  (W4_of_ne m ρ c main_arg4 (by decide)).trans (w3_arg4 m ρ c)
theorem w4_arg5 : (W4 m ρ c (Proc.devRef .tc main_arg5) : S2048.Idx → EReal) = aBh m c :=
  (W4_of_ne m ρ c main_arg5 (by decide)).trans (w3_arg5 m ρ c)
theorem w4_arg6 : (W4 m ρ c (Proc.devRef .tc main_arg6) : S512x2560.Idx → EReal) = aWo m c :=
  (W4_of_ne m ρ c main_arg6 (by decide)).trans (w3_arg6 m ρ c)
theorem w4_arg7 : (W4 m ρ c (Proc.devRef .tc main_arg7) : S512.Idx → EReal) = aBo m c :=
  (W4_of_ne m ρ c main_arg7 (by decide)).trans (w3_arg7 m ρ c)
theorem w5_v14 : (W5 m ρ c (Proc.devRef .tc main_v14) : S4096x2560.Idx → EReal) = Cert.Net.hid1 (aX m c) (aH m c) (aWl m c) (aBl m c) := by
  show StableHlo.after hostOps2 (W4 m ρ c) (Proc.devRef .tc main_v14) = _
  dsimp only [hostOps2]
  after_results
  exact w4_v14 m ρ c
theorem w5_v16 : (W5 m ρ c (Proc.devRef .tc main_v16) : S2560x2560.Idx → EReal) = Cert.Net.sliceW 2 (aWl m c) := by
  show StableHlo.after hostOps2 (W4 m ρ c) (Proc.devRef .tc main_v16) = _
  dsimp only [hostOps2]
  after_results
  rw [w4_v2 m ρ c]
  exact Cert.Net.sliceW_eq 2 2 rfl (aWl m c) _ _
theorem w5_v18 : (W5 m ρ c (Proc.devRef .tc main_v18) : S2560.Idx → EReal) = Cert.Net.sliceB 2 (aBl m c) := by
  show StableHlo.after hostOps2 (W4 m ρ c) (Proc.devRef .tc main_v18) = _
  dsimp only [hostOps2]
  after_results
  rw [w4_arg3 m ρ c]
  exact Cert.Net.sliceB_eq 2 2 rfl (aBl m c) _ _
theorem w5_v2 : (W5 m ρ c (Proc.devRef .tc main_v2) : S4x2560x2560.Idx → EReal) = aWl m c := by
  show StableHlo.after hostOps2 (W4 m ρ c) (Proc.devRef .tc main_v2) = _
  dsimp only [hostOps2]
  after_results
  exact w4_v2 m ρ c
theorem w5_arg3 : (W5 m ρ c (Proc.devRef .tc main_arg3) : S4x2560.Idx → EReal) = aBl m c := by
  show StableHlo.after hostOps2 (W4 m ρ c) (Proc.devRef .tc main_arg3) = _
  dsimp only [hostOps2]
  after_results
  exact w4_arg3 m ρ c
theorem w5_arg4 : (W5 m ρ c (Proc.devRef .tc main_arg4) : S2048x2560.Idx → EReal) = aWh m c := by
  show StableHlo.after hostOps2 (W4 m ρ c) (Proc.devRef .tc main_arg4) = _
  dsimp only [hostOps2]
  after_results
  exact w4_arg4 m ρ c
theorem w5_arg5 : (W5 m ρ c (Proc.devRef .tc main_arg5) : S2048.Idx → EReal) = aBh m c := by
  show StableHlo.after hostOps2 (W4 m ρ c) (Proc.devRef .tc main_arg5) = _
  dsimp only [hostOps2]
  after_results
  exact w4_arg5 m ρ c
theorem w5_arg6 : (W5 m ρ c (Proc.devRef .tc main_arg6) : S512x2560.Idx → EReal) = aWo m c := by
  show StableHlo.after hostOps2 (W4 m ρ c) (Proc.devRef .tc main_arg6) = _
  dsimp only [hostOps2]
  after_results
  exact w4_arg6 m ρ c
theorem w5_arg7 : (W5 m ρ c (Proc.devRef .tc main_arg7) : S512.Idx → EReal) = aBo m c := by
  show StableHlo.after hostOps2 (W4 m ρ c) (Proc.devRef .tc main_arg7) = _
  dsimp only [hostOps2]
  after_results
  exact w4_arg7 m ρ c
theorem w6_v19 : (W6 m ρ c (Proc.devRef .tc main_v19) : S4096x2560.Idx → EReal) = Cert.Net.hid2 (aX m c) (aH m c) (aWl m c) (aBl m c) :=
  (W6_arr m ρ c 3).trans (call2_of c (V5 m ρ) _ _ _ (w5_v14 m ρ c) (w5_v16 m ρ c) (w5_v18 m ρ c))
theorem w6_v2 : (W6 m ρ c (Proc.devRef .tc main_v2) : S4x2560x2560.Idx → EReal) = aWl m c :=
  (W6_of_ne m ρ c main_v2 (by decide)).trans (w5_v2 m ρ c)
theorem w6_arg3 : (W6 m ρ c (Proc.devRef .tc main_arg3) : S4x2560.Idx → EReal) = aBl m c :=
  (W6_of_ne m ρ c main_arg3 (by decide)).trans (w5_arg3 m ρ c)
theorem w6_arg4 : (W6 m ρ c (Proc.devRef .tc main_arg4) : S2048x2560.Idx → EReal) = aWh m c :=
  (W6_of_ne m ρ c main_arg4 (by decide)).trans (w5_arg4 m ρ c)
theorem w6_arg5 : (W6 m ρ c (Proc.devRef .tc main_arg5) : S2048.Idx → EReal) = aBh m c :=
  (W6_of_ne m ρ c main_arg5 (by decide)).trans (w5_arg5 m ρ c)
theorem w6_arg6 : (W6 m ρ c (Proc.devRef .tc main_arg6) : S512x2560.Idx → EReal) = aWo m c :=
  (W6_of_ne m ρ c main_arg6 (by decide)).trans (w5_arg6 m ρ c)
theorem w6_arg7 : (W6 m ρ c (Proc.devRef .tc main_arg7) : S512.Idx → EReal) = aBo m c :=
  (W6_of_ne m ρ c main_arg7 (by decide)).trans (w5_arg7 m ρ c)
theorem w7_v19 : (W7 m ρ c (Proc.devRef .tc main_v19) : S4096x2560.Idx → EReal) = Cert.Net.hid2 (aX m c) (aH m c) (aWl m c) (aBl m c) := by
  show StableHlo.after hostOps3 (W6 m ρ c) (Proc.devRef .tc main_v19) = _
  dsimp only [hostOps3]
  after_results
  exact w6_v19 m ρ c
theorem w7_v21 : (W7 m ρ c (Proc.devRef .tc main_v21) : S2560x2560.Idx → EReal) = Cert.Net.sliceW 3 (aWl m c) := by
  show StableHlo.after hostOps3 (W6 m ρ c) (Proc.devRef .tc main_v21) = _
  dsimp only [hostOps3]
  after_results
  rw [w6_v2 m ρ c]
  exact Cert.Net.sliceW_eq 3 3 rfl (aWl m c) _ _
theorem w7_v23 : (W7 m ρ c (Proc.devRef .tc main_v23) : S2560.Idx → EReal) = Cert.Net.sliceB 3 (aBl m c) := by
  show StableHlo.after hostOps3 (W6 m ρ c) (Proc.devRef .tc main_v23) = _
  dsimp only [hostOps3]
  after_results
  rw [w6_arg3 m ρ c]
  exact Cert.Net.sliceB_eq 3 3 rfl (aBl m c) _ _
theorem w7_arg4 : (W7 m ρ c (Proc.devRef .tc main_arg4) : S2048x2560.Idx → EReal) = aWh m c := by
  show StableHlo.after hostOps3 (W6 m ρ c) (Proc.devRef .tc main_arg4) = _
  dsimp only [hostOps3]
  after_results
  exact w6_arg4 m ρ c
theorem w7_arg5 : (W7 m ρ c (Proc.devRef .tc main_arg5) : S2048.Idx → EReal) = aBh m c := by
  show StableHlo.after hostOps3 (W6 m ρ c) (Proc.devRef .tc main_arg5) = _
  dsimp only [hostOps3]
  after_results
  exact w6_arg5 m ρ c
theorem w7_arg6 : (W7 m ρ c (Proc.devRef .tc main_arg6) : S512x2560.Idx → EReal) = aWo m c := by
  show StableHlo.after hostOps3 (W6 m ρ c) (Proc.devRef .tc main_arg6) = _
  dsimp only [hostOps3]
  after_results
  exact w6_arg6 m ρ c
theorem w7_arg7 : (W7 m ρ c (Proc.devRef .tc main_arg7) : S512.Idx → EReal) = aBo m c := by
  show StableHlo.after hostOps3 (W6 m ρ c) (Proc.devRef .tc main_arg7) = _
  dsimp only [hostOps3]
  after_results
  exact w6_arg7 m ρ c
theorem w8_v24 : (W8 m ρ c (Proc.devRef .tc main_v24) : S4096x2560.Idx → EReal) = Cert.Net.hid3 (aX m c) (aH m c) (aWl m c) (aBl m c) :=
  (W8_arr m ρ c 3).trans (call3_of c (V7 m ρ) _ _ _ (w7_v19 m ρ c) (w7_v21 m ρ c) (w7_v23 m ρ c))
theorem w8_arg4 : (W8 m ρ c (Proc.devRef .tc main_arg4) : S2048x2560.Idx → EReal) = aWh m c :=
  (W8_of_ne m ρ c main_arg4 (by decide)).trans (w7_arg4 m ρ c)
theorem w8_arg5 : (W8 m ρ c (Proc.devRef .tc main_arg5) : S2048.Idx → EReal) = aBh m c :=
  (W8_of_ne m ρ c main_arg5 (by decide)).trans (w7_arg5 m ρ c)
theorem w8_arg6 : (W8 m ρ c (Proc.devRef .tc main_arg6) : S512x2560.Idx → EReal) = aWo m c :=
  (W8_of_ne m ρ c main_arg6 (by decide)).trans (w7_arg6 m ρ c)
theorem w8_arg7 : (W8 m ρ c (Proc.devRef .tc main_arg7) : S512.Idx → EReal) = aBo m c :=
  (W8_of_ne m ρ c main_arg7 (by decide)).trans (w7_arg7 m ρ c)
theorem w9_v24 : (W9 m ρ c (Proc.devRef .tc main_v24) : S4096x2560.Idx → EReal) = Cert.Net.hid3 (aX m c) (aH m c) (aWl m c) (aBl m c) := by
  show StableHlo.after hostOps4 (W8 m ρ c) (Proc.devRef .tc main_v24) = _
  dsimp only [hostOps4]
  after_results
  exact w8_v24 m ρ c
theorem w9_v25 : (W9 m ρ c (Proc.devRef .tc main_v25) : S2048x2560.Idx → EReal) = aWh m c := by
  show StableHlo.after hostOps4 (W8 m ρ c) (Proc.devRef .tc main_v25) = _
  dsimp only [hostOps4]
  after_results
  rw [w8_arg4 m ρ c]
  rfl
theorem w9_v26 : (W9 m ρ c (Proc.devRef .tc main_v26) : S512x2560.Idx → EReal) = aWo m c := by
  show StableHlo.after hostOps4 (W8 m ρ c) (Proc.devRef .tc main_v26) = _
  dsimp only [hostOps4]
  after_results
  rw [w8_arg6 m ρ c]
  rfl
theorem w9_arg5 : (W9 m ρ c (Proc.devRef .tc main_arg5) : S2048.Idx → EReal) = aBh m c := by
  show StableHlo.after hostOps4 (W8 m ρ c) (Proc.devRef .tc main_arg5) = _
  dsimp only [hostOps4]
  after_results
  exact w8_arg5 m ρ c
theorem w9_arg7 : (W9 m ρ c (Proc.devRef .tc main_arg7) : S512.Idx → EReal) = aBo m c := by
  show StableHlo.after hostOps4 (W8 m ρ c) (Proc.devRef .tc main_arg7) = _
  dsimp only [hostOps4]
  after_results
  exact w8_arg7 m ρ c

/-- The program's first result: the network's output. -/
theorem out_o : (W10 m ρ c (Proc.devRef .tc main_v27_1) : S4096x512.Idx → EReal) = Cert.Net.outO (aX m c) (aH m c) (aWl m c) (aBl m c) (aWo m c) (aBo m c) :=
  (W10_arr m ρ c 6).trans (call4o_of c (V9 m ρ) _ _ _ (w9_v24 m ρ c) (w9_v26 m ρ c) (w9_arg7 m ρ c))

/-- The program's second result: the network's new hidden state. -/
theorem out_h : (W10 m ρ c (Proc.devRef .tc main_v27_0) : S4096x2048.Idx → EReal) = Cert.Net.outH (aX m c) (aH m c) (aWl m c) (aBl m c) (aWh m c) (aBh m c) :=
  (W10_arr m ρ c 5).trans (call4h_of c (V9 m ρ) _ _ _ (w9_v24 m ρ c) (w9_v25 m ρ c) (w9_arg5 m ρ c))

end Cert.KernelIdeal.Chain

end
-- ==== Proof.RefValue.lean ====
/-
  The reference program's two results are the network's output and new hidden state.

  The reference joins x and h, then applies the four rectified layers and the two heads, each as a dot_general
  contracting the last axis of both operands, a bias row laid over the rows, and (for the rectifier) a maximum with a
  scalar zero laid over the array.  Stage by stage this is the network: the first layer over the joined array is the
  two-input layer, and each later stage is the layer of the stage before.
-/
import proofs.«180260_j81827716924021_2_alg».proof.Proof.Gen.ReferenceIdeal.Read
import proofs.«180260_j81827716924021_2_alg».proof.Proof.Net

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

variable (x0 : S4096x512.Idx → EReal) (x1 : S4096x2048.Idx → EReal) (x2 : S4x2560x2560.Idx → EReal)
  (x3 : S4x2560.Idx → EReal)

/-- After the first rectifier: the two-input layer of x and h. -/
theorem v9_eq : val_main_v9 (F := Ideal) x0 x1 x2 x3 = Cert.Net.hid0 x0 x1 x2 x3 := by
  unfold val_main_v9 val_main_v8 val_main_v7 val_main_v6 val_main_v5 val_main_v4 val_main_v3 val_main_v2 val_main_v1
    val_main_v0 val_main_call0_v0 val_main_call0_cst
  rw [Cert.Net.sliceW_eq 0 0 rfl x2, Cert.Net.sliceB_eq 0 0 rfl x3]
  exact (Cert.DenseNT.host_relu dot_S4096x2560_S2560x2560_S4096x2560_1_1_0_0_n_n rfl rfl rfl rfl rfl rfl _ _ _ _ _ _).trans
    (Cert.Net.hid0_join x0 x1 x2 x3 _)

/-- After the second rectifier. -/
theorem v18_eq : val_main_v18 (F := Ideal) x0 x1 x2 x3 = Cert.Net.hid1 x0 x1 x2 x3 := by
  unfold val_main_v18 val_main_v17 val_main_v16 val_main_v15 val_main_v14 val_main_v13 val_main_v12 val_main_v11
    val_main_v10 val_main_call1_v0 val_main_call1_cst
  rw [v9_eq, Cert.Net.sliceW_eq 1 1 rfl x2, Cert.Net.sliceB_eq 1 1 rfl x3]
  exact Cert.DenseNT.host_relu dot_S4096x2560_S2560x2560_S4096x2560_1_1_0_0_n_n rfl rfl rfl rfl rfl rfl _ _ _ _ _ _

/-- After the third rectifier. -/
theorem v27_eq : val_main_v27 (F := Ideal) x0 x1 x2 x3 = Cert.Net.hid2 x0 x1 x2 x3 := by
  unfold val_main_v27 val_main_v26 val_main_v25 val_main_v24 val_main_v23 val_main_v22 val_main_v21 val_main_v20
    val_main_v19 val_main_call2_v0 val_main_call2_cst
  rw [v18_eq, Cert.Net.sliceW_eq 2 2 rfl x2, Cert.Net.sliceB_eq 2 2 rfl x3]
  exact Cert.DenseNT.host_relu dot_S4096x2560_S2560x2560_S4096x2560_1_1_0_0_n_n rfl rfl rfl rfl rfl rfl _ _ _ _ _ _

/-- After the fourth rectifier. -/
theorem v36_eq : val_main_v36 (F := Ideal) x0 x1 x2 x3 = Cert.Net.hid3 x0 x1 x2 x3 := by
  unfold val_main_v36 val_main_v35 val_main_v34 val_main_v33 val_main_v32 val_main_v31 val_main_v30 val_main_v29
    val_main_v28 val_main_call3_v0 val_main_call3_cst
  rw [v27_eq, Cert.Net.sliceW_eq 3 3 rfl x2, Cert.Net.sliceB_eq 3 3 rfl x3]
  exact Cert.DenseNT.host_relu dot_S4096x2560_S2560x2560_S4096x2560_1_1_0_0_n_n rfl rfl rfl rfl rfl rfl _ _ _ _ _ _

/-- The new hidden state. -/
theorem v41_eq (x4 : S2048x2560.Idx → EReal) (x5 : S2048.Idx → EReal) :
    val_main_v41 (F := Ideal) x0 x1 x2 x3 x4 x5 = Cert.Net.outH x0 x1 x2 x3 x4 x5 := by
  unfold val_main_v41 val_main_v40 val_main_v39 val_main_v38 val_main_v37
  rw [v36_eq]
  exact Cert.DenseNT.host_tanh dot_S4096x2560_S2048x2560_S4096x2048_1_1_0_0_n_n rfl rfl rfl rfl rfl rfl _ _ _ _ _

/-- The output. -/
theorem v45_eq (x6 : S512x2560.Idx → EReal) (x7 : S512.Idx → EReal) :
    val_main_v45 (F := Ideal) x0 x1 x2 x3 x6 x7 = Cert.Net.outO x0 x1 x2 x3 x6 x7 := by
  unfold val_main_v45 val_main_v44 val_main_v43 val_main_v42
  rw [v36_eq]
  exact Cert.DenseNT.host_biased dot_S4096x2560_S512x2560_S4096x512_1_1_0_0_n_n rfl rfl rfl rfl rfl rfl _ _ _ _ _

end Cert.ReferenceIdeal.RefValue

end
-- ==== Proof.lean ====
/-
  The certificate of a four-layer rectified network with a tanh head and a linear head, written as five pallas calls,
  against its jnp reference.

  Both programs compute, on the extended reals, the network of Proof/Net.lean: with c0 the inputs x and h joined side
  by side, c(l+1) = max(c(l) W(l)^T + b(l), 0) for the four matrices of the stack, hidden = tanh(c4 Wh^T + bh) and
  output = c4 Wo^T + bo.  The kernel program rounds its operands to bfloat16 (the identity on extended reals), never
  joins x and h (its first call contracts x and h against the two column ranges of W0 and adds: the sum over 2560
  indices split at 512, by associativity), and computes every layer 512 rows at a time (an entry of a layer reads one
  row of its input, and the eight row blocks cover the 4096 rows).  No law used here needs a finite operand, so the
  precondition is never opened.  The three frames are the programs' runs with the results dropped; the idealization
  rewrote nothing, so what it must preserve is trivial.
-/
import proofs.«180260_j81827716924021_2_alg».proof.Defs
import proofs.«180260_j81827716924021_2_alg».proof.Proof.Gen.Kernel
import proofs.«180260_j81827716924021_2_alg».proof.Proof.Gen.Kernel.Skeleton
import proofs.«180260_j81827716924021_2_alg».proof.Proof.Gen.Kernel.Launch
import proofs.«180260_j81827716924021_2_alg».proof.Proof.Gen.Kernel.Points
import proofs.«180260_j81827716924021_2_alg».proof.Proof.Gen.Kernel.Frame
import proofs.«180260_j81827716924021_2_alg».proof.Proof.Gen.KernelIdeal
import proofs.«180260_j81827716924021_2_alg».proof.Proof.Gen.KernelIdeal.Skeleton
import proofs.«180260_j81827716924021_2_alg».proof.Proof.Gen.KernelIdeal.Launch
import proofs.«180260_j81827716924021_2_alg».proof.Proof.Gen.KernelIdeal.Points
import proofs.«180260_j81827716924021_2_alg».proof.Proof.Gen.KernelIdeal.Frame
import proofs.«180260_j81827716924021_2_alg».proof.Proof.Gen.ReferenceIdeal
import proofs.«180260_j81827716924021_2_alg».proof.Proof.Gen.Pre_finite_inputs
import proofs.«180260_j81827716924021_2_alg».proof.Proof.Gen.ReferenceIdeal.Run
import proofs.«180260_j81827716924021_2_alg».proof.Proof.Gen.ReferenceIdeal.Read
import proofs.«180260_j81827716924021_2_alg».proof.Proof.KernelRun
import proofs.«180260_j81827716924021_2_alg».proof.Proof.KernelValue
import proofs.«180260_j81827716924021_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both programs end with the network's output and new hidden state of the same argument arrays. -/
theorem algebraic : Cert.algebraic_KernelIdeal_ReferenceIdeal := by
  intro m ρ m' ρ' _ hagree
  refine ⟨fun c => Cert.Net.outO (Cert.KernelIdeal.Chain.aX m c) (Cert.KernelIdeal.Chain.aH m c)
      (Cert.KernelIdeal.Chain.aWl m c) (Cert.KernelIdeal.Chain.aBl m c) (Cert.KernelIdeal.Chain.aWo m c)
      (Cert.KernelIdeal.Chain.aBo m c),
    fun c => Cert.Net.outH (Cert.KernelIdeal.Chain.aX m c) (Cert.KernelIdeal.Chain.aH m c)
      (Cert.KernelIdeal.Chain.aWl m c) (Cert.KernelIdeal.Chain.aBl m c) (Cert.KernelIdeal.Chain.aWh m c)
      (Cert.KernelIdeal.Chain.aBh m c), ?_, ?_⟩
  · exact (θ_run Cert.KernelIdeal.defs _ _).mono
      (fun r h c => ⟨(h c).1.trans (Cert.KernelIdeal.Chain.out_o m ρ c),
        (h c).2.1.trans (Cert.KernelIdeal.Chain.out_h m ρ c), (h c).2.2⟩)
      (Cert.KernelIdeal.Named.run (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨e0, e1, e2, e3, e4, e5, e6, e7⟩ := hagree c
      rw [Cert.ReferenceIdeal.Read.val_main_v45_eq, Cert.ReferenceIdeal.RefValue.v45_eq, e0, e1, e2, e3, e6, e7]
    · obtain ⟨e0, e1, e2, e3, e4, e5, e6, e7⟩ := hagree c
      rw [Cert.ReferenceIdeal.Read.val_main_v41_eq, Cert.ReferenceIdeal.RefValue.v41_eq, e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
